-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_tau" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S1x16384 : Shape := ⟨2, ![1, 16384]⟩
abbrev S2048x128 : Shape := ⟨2, ![2048, 128]⟩
abbrev S1x2048 : Shape := ⟨2, ![1, 2048]⟩
abbrev S8x2048 : Shape := ⟨2, ![8, 2048]⟩
abbrev S2048x2048 : Shape := ⟨2, ![2048, 2048]⟩
abbrev S256x8x2048 : Shape := ⟨3, ![256, 8, 2048]⟩
abbrev S2048 : Shape := ⟨1, ![2048]⟩
abbrev S16384 : Shape := ⟨1, ![16384]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384x128, .bf16⟩
  | .hbm, ⟨2, _⟩ => ⟨S1x16384, .f32⟩
  | .hbm, ⟨3, _⟩ => ⟨S16384, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x2048, .f32⟩
  | .local _ .vmem, ⟨5, _⟩ => ⟨S1x2048, .f32⟩
  | .local _ .vmem, ⟨6, _⟩ => ⟨S8x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x2048_S256x8x2048 : S2048x2048.ShapeCasts S256x8x2048
  reduces_S256x8x2048_S8x2048 : S256x8x2048.Reduces [0] S8x2048
  reduces_S8x2048_S2048 : S8x2048.Reduces [0] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x16384_S16384 : S1x16384.ShapeCasts S16384
  reducesTo_S16384x128_S16384_d1 : S16384x128.ReducesTo [1] S16384
  h_S_ : 0 < S_.numel
  bcast_S_S16384 : S_.BroadcastsInDim S16384 (![] : Fin 0 → Fin S16384.rank)
  reducesTo_S16384_S_d0 : S16384.ReducesTo [0] S_
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S128x16384 : Shape := ⟨2, ![128, 16384]⟩
abbrev S16384x16384 : Shape := ⟨2, ![16384, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S128x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S_S16384 : S_.BroadcastsInDim S16384 (![] : Fin 0 → Fin S16384.rank)
  transposes_S16384x128_S128x16384_1_0 : S16384x128.Transposes [1, 0] S128x16384
  bcast_S_S16384x16384 : S_.BroadcastsInDim S16384x16384 (![] : Fin 0 → Fin S16384x16384.rank)
  reducesTo_S16384x16384_S16384_d0 : S16384x16384.ReducesTo [0] S16384
  reducesTo_S16384_S_d0 : S16384.ReducesTo [0] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KbBase.lean ====
/-
  The kernel's program, as printed, around its region, and the grid's bookkeeping.

  @main converts the input to the narrow format (one host operation), runs the region on an 8 x 8 grid of points
  t = 8 j + i, and finishes with fourteen host operations.  Window 0 reads rows 2048 i .. of the converted
  input, window 1 rows 2048 j .. of the SAME array, window 2 is columns 2048 j .. of the 1 x 16384 result.
  The body zeroes its 8 x 2048 accumulator where i = 0 and writes the result block where i = 7; the result
  window is idle, and not written back, at every other point.
-/
import proofs.«134628_j33139967656579_2_alg».proof.Proof.Gen.Kernel.Launch
import proofs.«134628_j33139967656579_2_alg».proof.Proof.Gen.Kernel.Skeleton
import proofs.«134628_j33139967656579_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers on entering the region -/

/-- Core c's buffers when the region is entered: the launch contents after the conversion. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the conversion, the region, the later host operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## Blocks -/

/-- Window w's block at point t, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point (it is fetched at every point), for any proof
    data over these arrays whose body leaves the inputs alone. -/
theorem before0_of {c : Dev nD} (dat : Dat τ (Elt F) Unit ℕ (UR sig nD τ) ℕ cfg0 c) (hA : dat.A 0 = V m c (Pipeline.arrRef spec0 0))
    (hafter : ∀ t, dat.after 0 t = blkAt m c 0 t) (t : Fin cfg0.N) (d) : dat.before 0 t d = blkAt m c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- Input window 1's current buffer holds its block at every point, fetched there or not: it is fetched where the
    inner coordinate is 0, and its block index does not move until the next such point. -/
theorem before1_of {c : Dev nD} (dat : Dat τ (Elt F) Unit ℕ (UR sig nD τ) ℕ cfg0 c) (hA : dat.A 1 = V m c (Pipeline.arrRef spec0 1))
    (hafter : ∀ t, dat.after 1 t = blkAt m c 1 t) (t : Fin cfg0.N) (d) : dat.before 1 t d = blkAt m c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-! ## The two conditions, over the grid -/

/-- The first branch (zero the accumulator) is taken where the inner coordinate is 0; -/
abbrev condZero (i : grid0.Coords) : Prop := (Scalar.cmpi .ne (Scalar.extui (Scalar.cmpi .eq (BitVec.ofNat 32 (i 1).val) 0#32)) 0#32) = 1#1
theorem condZero_iff : ∀ t : Fin cfg0.N, condZero (grid0.coords t) ↔ t.val % 8 = 0 :=
  (by decide +kernel : ∀ t : Fin grid0.N, condZero (grid0.coords t) ↔ t.val % 8 = 0)

/-- the second (write the result block) where it is 7. -/
abbrev condLast (i : grid0.Coords) : Prop := k0_cond2 i = 1#1
theorem condLast_iff : ∀ t : Fin cfg0.N, condLast (grid0.coords t) ↔ t.val % 8 = 7 :=
  (by decide +kernel : ∀ t : Fin grid0.N, condLast (grid0.coords t) ↔ t.val % 8 = 7)

/-- The inputs are never idle; the result window is idle exactly off the last inner point, and written back exactly there. -/
theorem live0 : ∀ i : grid0.Coords, cfg0.idle 0 i = false := fun _ => rfl
theorem live1 : ∀ i : grid0.Coords, cfg0.idle 1 i = false := fun _ => rfl
theorem idle2_of : ∀ t : Fin cfg0.N, ¬condLast (grid0.coords t) → cfg0.idle 2 (grid0.coords t) = true := by decide +kernel
theorem live2_of : ∀ t : Fin cfg0.N, condLast (grid0.coords t) → cfg0.idle 2 (grid0.coords t) = false := by decide +kernel
theorem noFlush2_of : ∀ t : Fin cfg0.N, ¬condLast (grid0.coords t) → (cfg0.win 2).flush t = false := by decide +kernel

/-! ## The body's operands at a point -/

abbrev mr0 (t : Fin cfg0.N) : Memref sig .tc .vmem S2048x128 .bf16 := win0_0.stage (cfg0.slots t 0)
abbrev hmr0 (t : Fin cfg0.N) : (mr0 t).IsWhole := hstage0_0 ((cfg0.slots t 0).cast nbuf0_0)
abbrev mr1 (t : Fin cfg0.N) : Memref sig .tc .vmem S2048x128 .bf16 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1x2048 .f32 := win0_2.stage (cfg0.slots t 2)
abbrev hmr2 (t : Fin cfg0.N) : (mr2 t).IsWhole := hstage0_2 ((cfg0.slots t 2).cast nbuf0_2)
/-- The accumulator: a whole scoped buffer of the kernel's own. -/
abbrev accM : Memref sig .tc .vmem S8x2048 .f32 := Memref.whole cc0_scratch0

/-- The scoped buffers no window stages are the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- A buffer whose LAST store filled it whole reads back as that store's value, whatever was stored before. -/
theorem read_last_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

end Cert.Kernel.Fr

end
-- ==== Proof.KbRuns.lean ====
/-
  The body's run at a grid point, in its three cases.  Each of its stores fills a buffer whole, so what a buffer
  holds afterwards is the value of the last store into it: the accumulator ends at acc + S (S the column-group
  sums of the exponentials; acc is the zero array where the inner coordinate is 0), and where the inner
  coordinate is 7 the result window's buffer ends at the accumulator's column sums.
-/
import proofs.«134628_j33139967656579_2_alg».proof.Proof.KbBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl

set_option maxHeartbeats 1000000 in
/-- In the middle of an inner sweep (neither branch taken) the accumulator gains the point's sums; the result window's buffer is untouched. -/
theorem run_mid (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : ¬condZero i) (hl : ¬condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

set_option maxHeartbeats 1000000 in
/-- At the first point of an inner sweep the accumulator is zeroed first, whatever it held: it ends at the point's sums over zero. -/
theorem run_first (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : condZero i) (hl : ¬condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

set_option maxHeartbeats 1000000 in
/-- At the last point of an inner sweep the accumulator gains the point's sums and its column sums are stored into the result window's buffer, whatever that held. -/
theorem run_last (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : ¬condZero i) (hl : condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; swap; · iexact HO
    ipureintro
    try sl_unfold_words
    rw [read_last_whole _ _ zero2]
    simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

end Cert.Kernel.Fr

end
-- ==== Proof.KbData.lean ====
/-
  The proof data of the region and the body obligation.

  After the body at point n the accumulator holds A(n): the point's column-group sums added to A(n-1), or to the
  zero array where n is the first point of an inner sweep (n = 0 mod 8).  The invariant between points is the
  accumulator owned at A(n-1) (at anything before the first point).  The input windows' buffers hold their blocks
  and are left alone; the result window's buffer is written only at the last point of a sweep (n = 7 mod 8),
  with the accumulator's column sums, and handed back untouched elsewhere.  Window 0 and window 1 read one
  array: each holds half of it.
-/
import proofs.«134628_j33139967656579_2_alg».proof.Proof.KbRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator after the body at point n. -/
def accAt (c : Dev nD) : (n : ℕ) → n < cfg0.N → Vec F S8x2048 .f32
  | 0, h => k0_pay2 (blkAt m c 0 ⟨0, h⟩) (blkAt m c 1 ⟨0, h⟩) (k0_pay1 (F := F))
  | n + 1, h =>
    if (n + 1) % 8 = 0 then k0_pay2 (blkAt m c 0 ⟨n + 1, h⟩) (blkAt m c 1 ⟨n + 1, h⟩) (k0_pay1 (F := F))
    else k0_pay2 (blkAt m c 0 ⟨n + 1, h⟩) (blkAt m c 1 ⟨n + 1, h⟩) (accAt c n (Nat.lt_of_succ_lt h))

/-- At the first point of a sweep the accumulator restarts from zero; -/
theorem accAt_first (c : Dev nD) (t : Fin cfg0.N) (h : t.val % 8 = 0) :
    accAt m c t.val t.isLt = k0_pay2 (blkAt m c 0 t) (blkAt m c 1 t) (k0_pay1 (F := F)) := by
  obtain ⟨n, hn⟩ := t
  cases n with
  | zero => rfl
  | succ n => exact if_pos h

/-- elsewhere it continues from the point before. -/
theorem accAt_next (c : Dev nD) (t : Fin cfg0.N) (h : ¬t.val % 8 = 0) :
    accAt m c t.val t.isLt = k0_pay2 (blkAt m c 0 t) (blkAt m c 1 t) (accAt m c (t.val - 1) (Nat.lt_of_le_of_lt (Nat.sub_le _ _) t.isLt)) := by
  obtain ⟨n, hn⟩ := t
  cases n with
  | zero => exact absurd (Nat.zero_mod _) h
  | succ n => exact if_neg h

/-- The invariant before position n: the accumulator at anything before the first point, then at what the point
    before left in it. -/
def PhiS (c : Dev nD) : (n : ℕ) → n ≤ cfg0.N → sProp 𝕄
  | 0, _ => iprop(∃ d, owns (c : Thread nD τ) accM fullShare d)
  | n + 1, hn => owns (c : Thread nD τ) accM fullShare (accAt m c n hn)

theorem PhiS_zero (c : Dev nD) (n : ℕ) (h : n ≤ cfg0.N) (hz : n = 0) :
    PhiS m c n h = iprop(∃ d, owns (c : Thread nD τ) accM fullShare d) := by subst hz; rfl
theorem PhiS_succ (c : Dev nD) (n : ℕ) (hn : n < cfg0.N) :
    PhiS m c (n + 1) hn = owns (c : Thread nD τ) accM fullShare (accAt m c n hn) := rfl
theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- Whatever the position, the invariant holds the accumulator at some contents. -/
theorem PhiS_some (c : Dev nD) (n : ℕ) (h : n ≤ cfg0.N) : PhiS m c n h ⊢ iprop(∃ d, owns (c : Thread nD τ) accM fullShare d) := by
  cases n with
  | zero => exact .rfl
  | succ n => rw [PhiS_succ]; iintro H; iexists _; iexact H

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => blkAt m c 0 t
    | ⟨1, _⟩ => blkAt m c 1 t
    | ⟨2, _⟩ => k0_pay3 (accAt m c t.val t.isLt)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = blkAt m c 0 t := by dsimp only [dats]
theorem after1 (c : Dev nD) (t : Fin cfg0.N) : (dats m 0 c).after 1 t = blkAt m c 1 t := by dsimp only [dats]
theorem after2 (c : Dev nD) (t : Fin cfg0.N) : (dats m 0 c).after 2 t = k0_pay3 (accAt m c t.val t.isLt) := by dsimp only [dats]
theorem before0 (c : Dev nD) (t : Fin cfg0.N) (d) : (dats m 0 c).before 0 t d = blkAt m c 0 t :=
  before0_of m (dats m 0 c) (A_eq m c 0) (after0 m c) t d
theorem before1 (c : Dev nD) (t : Fin cfg0.N) (d) : (dats m 0 c).before 1 t d = blkAt m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the point's residue mod 8 says which case it is in; the invariant hands the body the
    accumulator and takes it back at this point's contents; the inputs are handed back as found, and so is the
    result window's buffer except at the last point of a sweep. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, Phi_castSucc]
  rw [show (dats m 0 c).leavesExact 0 t = owns (c : Thread nD τ) (mr0 t) fullShare ((dats m 0 c).after 0 t) from by
    unfold Dat.leavesExact; rw [live0], after0]
  rw [show (dats m 0 c).leavesExact 1 t = owns (c : Thread nD τ) (mr1 t) fullShare ((dats m 0 c).after 1 t) from by
    unfold Dat.leavesExact; rw [live1], after1]
  have hN : t.val < 64 := lt_of_lt_of_eq t.isLt (show cfg0.N = 64 from N_0)
  by_cases hl : t.val % 8 = 7
  · have hz : ¬t.val % 8 = 0 := by omega
    rw [show (dats m 0 c).leavesExact 2 t = owns (c : Thread nD τ) (mr2 t) fullShare ((dats m 0 c).after 2 t) from by
      unfold Dat.leavesExact; rw [live2_of t ((condLast_iff t).mpr hl)], after2, accAt_next m c t hz]
    rw [PhiS_pos m c _ _ (by omega)]
    iintro ⟨HS, Ho, ⟨%d0, H0⟩, ⟨%d1, H1⟩, ⟨%d2, H2⟩⟩
    iapply (run_last c (grid0.coords t) _ _ _ _ _ _ _ _ (fun h => hz ((condZero_iff t).mp h)) ((condLast_iff t).mpr hl)
      (blkAt m c 0 t) (blkAt m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle2_of t (fun h => hl ((condLast_iff t).mp h))) (noFlush2_of t (fun h => hl ((condLast_iff t).mp h)))]
    by_cases hz : t.val % 8 = 0
    · rw [accAt_first m c t hz]
      iintro ⟨HS, Ho, ⟨%d0, H0⟩, ⟨%d1, H1⟩, ⟨%d2, H2⟩⟩
      ihave HS' := (PhiS_some m c _ _) $$ HS
      icases HS' with ⟨%xs, HS⟩
      iapply (run_first c (grid0.coords t) _ _ _ _ _ _ _ _ ((condZero_iff t).mpr hz) (fun h => hl ((condLast_iff t).mp h))
        (blkAt m c 0 t) (blkAt m c 1 t) _ xs Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · rw [accAt_next m c t hz, PhiS_pos m c _ _ (by omega)]
      iintro ⟨HS, Ho, ⟨%d0, H0⟩, ⟨%d1, H1⟩, ⟨%d2, H2⟩⟩
      iapply (run_mid c (grid0.coords t) _ _ _ _ _ _ _ _ (fun h => hz ((condZero_iff t).mp h)) (fun h => hl ((condLast_iff t).mp h))
        (blkAt m c 0 t) (blkAt m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.scopedRest (Ix := Unit) (Name := ℕ) (U := UR sig nD τ) (Lvl := ℕ) (Val := Elt F) spec0 c ⊢ (dats m 0 c).Φ 0 := by
  rw [scopedRest_acc, show (dats m 0 c).Φ 0 = PhiS m c 0 (Nat.zero_le _) from rfl, PhiS_zero m c 0 _ rfl]

/-- and after the last point the invariant gives it back. -/
theorem hout (c : Dev nD) : (dats m 0 c).Φ (Fin.last cfg0.N) ⊢ Pipeline.scopedRest (Ix := Unit) (Name := ℕ) (U := UR sig nD τ) (Lvl := ℕ) (Val := Elt F) spec0 c := by
  rw [scopedRest_acc, show (dats m 0 c).Φ (Fin.last cfg0.N) = PhiS m c (Fin.last cfg0.N).val (Nat.le_of_lt_succ (Fin.last cfg0.N).isLt) from rfl]
  exact PhiS_some m c _ _

end Cert.Kernel.Fr

end
-- ==== Proof.LibSharedAround.lean ====
/-
  The run of a one-region TensorCore program whose INPUT windows may read one array through several index maps,
  whose body carries an invariant of its own between grid points, and whose @main goes on after the region with
  one line of host operations.

  The distinct buffers behind the windows' arrays are handed to the region whole; how one array's ownership is
  divided among the windows that read it is the caller's (`hsplit`), and so is putting it back together when the
  region ends (`hmerge`): the host operations after the region then run within all of the core's unscoped buffers,
  held whole, exactly as the ones before it did.  They write no array of the region (`hsplitN` divides the
  buffers behind the arrays again at the end, at the contents the region left).  Every weakly fair execution ends,
  nothing faulting, with each window's array at what the write-backs of all grid points leave and every other
  unscoped buffer at what the later host operations compute from the contents `W` at the region's exit.
-/
import Idealize.ShloMosaic.Lib.Pipeline.FrameSuffix

noncomputable section

namespace Cert.LibSharedAround

open Idealize.ShloMosaic Idealize.ShloMosaic.Pipeline
open Idealize.SL
open Idealize.SL.BI (sProp bigSep bigSep_map bigSep_congr bigSep_sdiff_split)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- A core's unscoped buffers at a valuation are the buffers behind the windows' arrays and the rest, the arrays
    distinct or not. -/
theorem unscopedBufs_eq {gr : Nat} {W : Nat} (win : Fin W → WinSpec sig gr) (hun : ∀ w, (arrRef win w).isScoped = false)
    (c : Dev nD) (V : (b : Ref sig .tc) → Buf Val ((c.tc : Thread nD τ).loc b)) :
    (unscopedBufs (Ix := Unit) (Name := ℕ) (U := UR sig nD τ) (Lvl := ℕ) c V : sProp 𝕄)
      = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  unfold unscopedBufs unscopedRest arrBufs
  rw [bigSep_sdiff_split hA]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

theorem θ_run_around_shared
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W : Dev nD → Valuation τ sig Val) (ops : List (HloOp τ sig Val))
    (hsub : ∀ op ∈ ops, op.bufs ⊆ StableHlo.tcRefs τ sig) (hfresh : ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain [StableHlo.seq ops]))
    (hsplit : ∀ c, (arrBufs (cfgs p).spec c (fun b => V₀ c (Proc.devRef .tc b)) : sProp 𝕄) ⊢ (dats p c).arrays ((dats p c).arrAt · 0))
    (hmerge : ∀ c, (dats p c).arrays ((dats p c).arrAt · (cfgs p).N) ⊢ (arrBufs (cfgs p).spec c (fun b => W c (Proc.devRef .tc b)) : sProp 𝕄))
    (hW : ∀ c, ∀ b ∈ restRefs sig (cfgs p).spec, W c (Proc.devRef .tc b) = V₀ c (Proc.devRef .tc b))
    (hsplitN : ∀ c, (arrBufs (cfgs p).spec c (fun b => StableHlo.after ops (W c) (Proc.devRef .tc b)) : sProp 𝕄)
      ⊢ (dats p c).arrays ((dats p c).arrAt · (cfgs p).N))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N)
      ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec,
            r.2.mem ((c.tc : Thread nD τ).loc b) = StableHlo.after ops (W c) (Proc.devRef .tc b)) := by
  classical
  exact θ_run_region_noSem_pf_tail (fun p => (cfgs p).toPCfg) (fun p => (cfgs p).toPCfg_adm) dats () hinj p hw (PreFacts.none _) emb₁ defs₀ 𝒱₀
    m g main (fun _ => chain [StableHlo.seq ops]) hbody hne harr hstage howed
    (initOf (cells cfgs hinj) (launchToks cfgs hinj)) .rfl (fun c b => V₀ c (Proc.devRef .tc b)) hmain hsplit (fun _ k => k.elim0)
    (fun _ => iprop(emp)) (fun _ => iprop(emp))
    (fun c => unscopedRest (Ix := Unit) (Name := ℕ) (U := UR sig nD τ) (Lvl := ℕ) (cfgs p).spec c (fun b => V₀ c (Proc.devRef .tc b)))
    (fun c => unscopedRest (Ix := Unit) (Name := ℕ) (U := UR sig nD τ) (Lvl := ℕ) (cfgs p).spec c (fun b => StableHlo.after ops (W c) (Proc.devRef .tc b)))
    (fun c => by
      rw [unscopedRestP_none]
      iintro H
      isplitr
      · iempintro
      · iexact H)
    (fun c => (show _ ⊢ scopedRest (Ix := Unit) (Name := ℕ) (U := UR sig nD τ) (Lvl := ℕ) (Val := Val) (cfgs p).spec c from by
      iintro ⟨-, -, HR⟩; iexact HR).trans (hin c))
    (fun c => (hout c).trans (by
      iintro H
      isplitr
      · iempintro
      · iexact H))
    (fun c Q' => by
      have hZ : (unscopedRest (Ix := Unit) (Name := ℕ) (U := UR sig nD τ) (Lvl := ℕ) (cfgs p).spec c (fun b => V₀ c (Proc.devRef .tc b)) : sProp 𝕄)
          = unscopedRest (cfgs p).spec c (fun b => W c (Proc.devRef .tc b)) := by
        unfold unscopedRest
        exact bigSep_congr fun b hb => by dsimp only; rw [hW c b hb]
      have hheld (Wv : Valuation τ sig Val) : (StableHlo.held (c.tc : Thread nD τ) (ucRefs τ sig) Wv : sProp 𝕄)
          = iprop((arrBufs (cfgs p).spec c (fun b => Wv (Proc.devRef .tc b)) : sProp 𝕄) ∗ unscopedRest (cfgs p).spec c (fun b => Wv (Proc.devRef .tc b))) := by
        rw [← unscopedBufs_held (Ix := Unit) (Name := ℕ) (U := UR sig nD τ) (Lvl := ℕ) c Wv,
          unscopedBufs_eq (cfgs p).spec hw.arr_unscoped c (fun b => Wv (Proc.devRef .tc b))]
      have hseq := StableHlo.wp_seq (defs := Pipeline.defs (fun q => Cfg.toPCfg (Val := Val) (cfgs q)) defs₀) (Variants.lift 𝒱₀) none Set.univ c (ucRefs τ sig)
        (fun _ => chain []) (K := Q') ops (fun op h => sub_ucRefs op (hsub op h)) hfresh (W c)
      rw [hheld (W c), hheld (StableHlo.after ops (W c))] at hseq
      rw [hZ]
      show _ ⊢ wp _ _ _ (chain [StableHlo.seq ops]) Q'
      rw [chain_cons]
      iintro ⟨Hk, Hbd, Ha, HZ⟩
      ihave Hb := (hmerge c) $$ Ha
      iapply hseq $$ [Hbd Hb HZ]
      · isplitl [Hbd]; · iexact Hbd
        isplitl [Hb] <;> iassumption
      iintro ⟨Hbd, Hb, HZ⟩
      ihave Ha := (hsplitN c) $$ Hb
      iapply (tail_ret (fun p => (cfgs p).toPCfg) (Pipeline.defs (fun q => Cfg.toPCfg (Val := Val) (cfgs q)) defs₀) (Variants.lift 𝒱₀) c _ _ _ Q')
      isplitl [Hk]; · iexact Hk
      isplitl [Hbd]; · iexact Hbd
      isplitl [Ha] <;> iassumption)
    (fun c s => ∀ b ∈ restRefs sig (cfgs p).spec, s.mem ((c.tc : Thread nD τ).loc b) = StableHlo.after ops (W c) (Proc.devRef .tc b))
    (fun c s' => by
      iintro ⟨-, HU, HSI⟩
      unfold unscopedRest
      imodintro
      iapply (pointsTo_read_all (restRefs sig (cfgs p).spec) (fun b => (c.tc : Thread nD τ).loc b) (fun b => StableHlo.after ops (W c) (Proc.devRef .tc b)) s')
      isplitl [HU] <;> iassumption)
    (fun s h c => ⟨(h c).1, (h c).2.2⟩)

end Cert.LibSharedAround

end
-- ==== Proof.KbRun.lean ====
/-
  The run of the kernel's program as printed: every weakly fair execution of @main ends, nothing faulting, with
  the region's arrays at what the write-backs leave and every other unscoped buffer at what the fourteen later
  host operations compute from the contents at the region's exit.

  The converted input is read by two windows.  On entering the region its full ownership is cut in two halves,
  one per window; both windows are inputs, so both end holding the array as they found it, and on leaving the
  region the halves are joined again.  The later host operations write neither the converted input nor the
  region's result, so the cut can be made once more at the very end.
-/
import proofs.«134628_j33139967656579_2_alg».proof.Proof.KbData
import proofs.«134628_j33139967656579_2_alg».proof.Proof.LibSharedAround

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole is its two halves, and back. -/
theorem split_full (ℓ : Loc nD τ sig) (f : Buf (Elt F) ℓ) :
    (ℓ ↦{fullShare} f : sProp 𝕄) ⊣⊢ iprop((ℓ ↦{fullShare.left} f) ∗ ℓ ↦{fullShare.right} f) :=
  pointsTo_share (by rw [PosShare.left_op_right]; exact Part.mem_some _)

/-- The buffers behind the windows' arrays are two: the converted input and the region's result. -/
theorem arrBufs_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v0) ↦{fullShare} Vb main_v0) ∗ (((c : Thread nD τ).loc main_v1) ↦{fullShare} Vb main_v1)) := by
  unfold Pipeline.arrBufs
  exact bigSep_eq_bigSepL_of_eq [main_v0, main_v1] (by decide) (by decide) _

/-- The proof data's arrays, at contents that agree on the two windows of the converted input, are the two
    buffers behind them held whole: the input's two halves joined, or its whole cut in two. -/
theorem arrays_iff (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v0) (h1 : Fw 1 = Vb main_v0) (h2 : Fw 2 = Vb main_v1) :
    ((dats m 0 c).arrays Fw : sProp 𝕄) ⊣⊢ Pipeline.arrBufs (Ix := Unit) (Name := ℕ) (U := UR sig nD τ) (Lvl := ℕ) spec0 c Vb := by
  have e0 : ((cfg0.win 0).arr.view.loc (c : Thread nD τ) ↦[(cfg0.win 0).arr.view.set]{(dats m 0 c).share 0} Fw 0 : sProp 𝕄)
      = ((c : Thread nD τ).loc main_v0 ↦{fullShare.left} Vb main_v0) := by
    rw [(arr_whole0 0).set_eq_univ, h0]; rfl
  have e1 : ((cfg0.win 1).arr.view.loc (c : Thread nD τ) ↦[(cfg0.win 1).arr.view.set]{(dats m 0 c).share 1} Fw 1 : sProp 𝕄)
      = ((c : Thread nD τ).loc main_v0 ↦{fullShare.right} Vb main_v0) := by
    rw [(arr_whole0 1).set_eq_univ, h1]; rfl
  have e2 : ((cfg0.win 2).arr.view.loc (c : Thread nD τ) ↦[(cfg0.win 2).arr.view.set]{(dats m 0 c).share 2} Fw 2 : sProp 𝕄)
      = ((c : Thread nD τ).loc main_v1 ↦{fullShare} Vb main_v1) := by
    rw [(arr_whole0 2).set_eq_univ, h2]; rfl
  rw [arrBufs_eq]
  unfold Dat.arrays
  rw [bigSep_W0, e0, e1, e2]
  constructor
  · iintro ⟨Ha, Hb, Hc⟩
    isplitl [Ha Hb]
    · iapply (split_full ((c : Thread nD τ).loc main_v0) (Vb main_v0)).2
      isplitl [Ha] <;> iassumption
    · iexact Hc
  · iintro ⟨Hab, Hc⟩
    ihave H := (split_full ((c : Thread nD τ).loc main_v0) (Vb main_v0)).1 $$ Hab
    icases H with ⟨Ha, Hb⟩
    isplitl [Ha]; · iexact Ha
    isplitl [Hb] <;> iassumption

/-! ## The contents on leaving the region -/

/-- Core c's buffers on leaving the region: as on entering it, except the result array, at what the write-backs
    of all grid points left in it. -/
def Wx (c : Dev nD) : Valuation τ sig (Elt F) :=
  Function.update (V0 m c) (Proc.devRef .tc main_v1) ((dats m 0 c).arrAt 2 cfg0.N)

theorem Wx_v1 (c : Dev nD) : Wx m c (Proc.devRef .tc main_v1) = (dats m 0 c).arrAt 2 cfg0.N := by
  unfold Wx; exact Function.update_self ..
theorem Wx_of_ne (c : Dev nD) (b : Ref sig .tc) (hb : b ≠ main_v1) : Wx m c (Proc.devRef .tc b) = V m c b := by
  unfold Wx; exact Function.update_of_ne (fun e => hb (Proc.devRef_injective _ e)) _ _

/-- None of the later host operations writes the converted input, the region's result, or the program's argument. -/
theorem keeps (b : Ref sig .tc) (hb : b = main_v0 ∨ b = main_v1 ∨ b = main_arg0) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;>
  rcases hop with rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem after_keeps (b : Ref sig .tc) (hb : b = main_v0 ∨ b = main_v1 ∨ b = main_arg0) (Wv : Valuation τ sig (Elt F)) :
    StableHlo.after hostOps1 Wv (Proc.devRef .tc b) = Wv (Proc.devRef .tc b) :=
  StableHlo.after_of_forall_not_mem (b := Proc.devRef .tc b) hostOps1 Wv (keeps b hb)

/-- The input windows end holding the converted input as the region found it. -/
theorem arrAt0 (c : Dev nD) (n : ℕ) : (dats m 0 c).arrAt 0 n = V m c main_v0 := ((dats m 0 c).arrAt_in 0 rfl n).trans (A_eq m c 0)
theorem arrAt1 (c : Dev nD) (n : ℕ) : (dats m 0 c).arrAt 1 n = V m c main_v0 := ((dats m 0 c).arrAt_in 1 rfl n).trans (A_eq m c 1)

theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) :=
  (arrays_iff m c (fun b => V0 m c (Proc.devRef .tc b)) ((dats m 0 c).arrAt · 0) (arrAt0 m c 0) (arrAt1 m c 0) (A_eq m c 2)).2

theorem hmerge (c : Dev nD) :
    (dats m 0 c).arrays ((dats m 0 c).arrAt · cfg0.N)
      ⊢ (Pipeline.arrBufs (Ix := Unit) (Name := ℕ) (U := UR sig nD τ) (Lvl := ℕ) spec0 c (fun b => Wx m c (Proc.devRef .tc b)) : sProp 𝕄) :=
  (arrays_iff m c (fun b => Wx m c (Proc.devRef .tc b)) ((dats m 0 c).arrAt · cfg0.N)
    ((arrAt0 m c _).trans (Wx_of_ne m c main_v0 (by decide)).symm) ((arrAt1 m c _).trans (Wx_of_ne m c main_v0 (by decide)).symm) (Wx_v1 m c).symm).1

theorem hsplitN (c : Dev nD) :
    (Pipeline.arrBufs (Ix := Unit) (Name := ℕ) (U := UR sig nD τ) (Lvl := ℕ) spec0 c (fun b => StableHlo.after hostOps1 (Wx m c) (Proc.devRef .tc b)) : sProp 𝕄)
      ⊢ (dats m 0 c).arrays ((dats m 0 c).arrAt · cfg0.N) :=
  (arrays_iff m c (fun b => StableHlo.after hostOps1 (Wx m c) (Proc.devRef .tc b)) ((dats m 0 c).arrAt · cfg0.N)
    (((arrAt0 m c _).trans (Wx_of_ne m c main_v0 (by decide)).symm).trans (after_keeps main_v0 (.inl rfl) _).symm)
    (((arrAt1 m c _).trans (Wx_of_ne m c main_v0 (by decide)).symm).trans (after_keeps main_v0 (.inl rfl) _).symm)
    ((Wx_v1 m c).symm.trans (after_keeps main_v1 (.inr (.inl rfl)) _).symm)).2

theorem hW (c : Dev nD) : ∀ b ∈ Pipeline.restRefs sig spec0, Wx m c (Proc.devRef .tc b) = V0 m c (Proc.devRef .tc b) := fun b hb =>
  Wx_of_ne m c b (fun e => (Finset.mem_sdiff.mp hb).2 (Finset.mem_image.mpr ⟨2, Finset.mem_univ _, e.symm⟩))

/-! ## The run -/

set_option backward.isDefEq.respectTransparency.types false in
theorem run_main : θ_run defs (onTc (τ := τ) (main (F := F))) (s₀ m ρ)
    (fun r => ∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = StableHlo.after hostOps1 (Wx m c) (Proc.devRef .tc b)) :=
  Cert.LibSharedAround.θ_run_around_shared cfgs (dats m) (0 : Fin 1) defs₀ Variants.none cellOf_inj winFacts₀0 block_pos0 arr_whole0 stage_whole0
    m ρ main (fun c => (body_obligation m c).loose) (fun _ _ => rfl) (V0 m) (Wx m) hostOps1
    (fun op h => (List.forall_iff_forall_mem.mp hostOps1_sub) op h) (fun op h => (List.forall_iff_forall_mem.mp hostOps1_fresh) op h)
    (hmain m Variants.none) (hsplit m) (hmerge m) (hW m) (hsplitN m) (hin m) (hout m)

/-- The program's argument is no window's array and is written by no host operation: it ends as launched. -/
theorem arg0_kept (c : Dev nD) : StableHlo.after hostOps1 (Wx m c) (Proc.devRef .tc main_arg0) = m ((c : Thread nD τ).loc main_arg0) :=
  (after_keeps main_arg0 (.inr (.inr rfl)) _).trans ((Wx_of_ne m c main_arg0 (by decide)).trans
    (StableHlo.after_of_forall_not_mem (b := Proc.devRef .tc main_arg0) (List.flatten [hostOps0]) (fun b => m (c, b)) (by
      intro op hop
      simp only [hostOps0, List.flatten_cons, List.flatten_nil, List.append_nil, List.mem_cons, List.mem_nil_iff, or_false] at hop
      rcases hop with rfl
      simp only [StableHlo.unary_writes, Finset.mem_singleton]
      exact StableHlo.devRef_ne_of_ne (by decide))))

theorem arg0_rest : main_arg0 ∈ Pipeline.restRefs sig spec0 := Pipeline.mem_restRefs_of main_arg0 rfl (by decide)
theorem v11_rest : main_v11 ∈ Pipeline.restRefs sig spec0 := Pipeline.mem_restRefs_of main_v11 rfl (by decide)

/-- The frame: @main runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (arg0_kept m c)) (run_main m ρ)

end Cert.Kernel.Fr

end
-- ==== Proof.KiBase.lean ====
/-
  The idealized kernel's program around its region, and the grid's bookkeeping.

  @main converts the input to the narrow format (one host operation), runs the region on an 8 x 8 grid of points
  t = 8 j + i, and finishes with fourteen host operations.  Window 0 reads rows 2048 i .. of the converted
  input, window 1 rows 2048 j .. of the SAME array, window 2 is columns 2048 j .. of the 1 x 16384 result.
  The body zeroes its 8 x 2048 accumulator where i = 0 and writes the result block where i = 7; the result
  window is idle, and not written back, at every other point.
-/
import proofs.«134628_j33139967656579_2_alg».proof.Proof.Gen.KernelIdeal.Launch
import proofs.«134628_j33139967656579_2_alg».proof.Proof.Gen.KernelIdeal.Skeleton
import proofs.«134628_j33139967656579_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers on entering the region -/

/-- Core c's buffers when the region is entered: the launch contents after the conversion. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the conversion, the region, the later host operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## Blocks -/

/-- Window w's block at point t, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point (it is fetched at every point), for any proof
    data over these arrays whose body leaves the inputs alone. -/
theorem before0_of {c : Dev nD} (dat : Dat τ (Elt F) Unit ℕ (UR sig nD τ) ℕ cfg0 c) (hA : dat.A 0 = V m c (Pipeline.arrRef spec0 0))
    (hafter : ∀ t, dat.after 0 t = blkAt m c 0 t) (t : Fin cfg0.N) (d) : dat.before 0 t d = blkAt m c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- Input window 1's current buffer holds its block at every point, fetched there or not: it is fetched where the
    inner coordinate is 0, and its block index does not move until the next such point. -/
theorem before1_of {c : Dev nD} (dat : Dat τ (Elt F) Unit ℕ (UR sig nD τ) ℕ cfg0 c) (hA : dat.A 1 = V m c (Pipeline.arrRef spec0 1))
    (hafter : ∀ t, dat.after 1 t = blkAt m c 1 t) (t : Fin cfg0.N) (d) : dat.before 1 t d = blkAt m c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-! ## The two conditions, over the grid -/

/-- The first branch (zero the accumulator) is taken where the inner coordinate is 0; -/
abbrev condZero (i : grid0.Coords) : Prop := (Scalar.cmpi .ne (Scalar.extui (Scalar.cmpi .eq (BitVec.ofNat 32 (i 1).val) 0#32)) 0#32) = 1#1
theorem condZero_iff : ∀ t : Fin cfg0.N, condZero (grid0.coords t) ↔ t.val % 8 = 0 :=
  (by decide +kernel : ∀ t : Fin grid0.N, condZero (grid0.coords t) ↔ t.val % 8 = 0)

/-- the second (write the result block) where it is 7. -/
abbrev condLast (i : grid0.Coords) : Prop := k0_cond2 i = 1#1
theorem condLast_iff : ∀ t : Fin cfg0.N, condLast (grid0.coords t) ↔ t.val % 8 = 7 :=
  (by decide +kernel : ∀ t : Fin grid0.N, condLast (grid0.coords t) ↔ t.val % 8 = 7)

/-- The inputs are never idle; the result window is idle exactly off the last inner point, and written back exactly there. -/
theorem live0 : ∀ i : grid0.Coords, cfg0.idle 0 i = false := fun _ => rfl
theorem live1 : ∀ i : grid0.Coords, cfg0.idle 1 i = false := fun _ => rfl
theorem idle2_of : ∀ t : Fin cfg0.N, ¬condLast (grid0.coords t) → cfg0.idle 2 (grid0.coords t) = true := by decide +kernel
theorem live2_of : ∀ t : Fin cfg0.N, condLast (grid0.coords t) → cfg0.idle 2 (grid0.coords t) = false := by decide +kernel
theorem noFlush2_of : ∀ t : Fin cfg0.N, ¬condLast (grid0.coords t) → (cfg0.win 2).flush t = false := by decide +kernel

/-! ## The body's operands at a point -/

abbrev mr0 (t : Fin cfg0.N) : Memref sig .tc .vmem S2048x128 .bf16 := win0_0.stage (cfg0.slots t 0)
abbrev hmr0 (t : Fin cfg0.N) : (mr0 t).IsWhole := hstage0_0 ((cfg0.slots t 0).cast nbuf0_0)
abbrev mr1 (t : Fin cfg0.N) : Memref sig .tc .vmem S2048x128 .bf16 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1x2048 .f32 := win0_2.stage (cfg0.slots t 2)
abbrev hmr2 (t : Fin cfg0.N) : (mr2 t).IsWhole := hstage0_2 ((cfg0.slots t 2).cast nbuf0_2)
/-- The accumulator: a whole scoped buffer of the kernel's own. -/
abbrev accM : Memref sig .tc .vmem S8x2048 .f32 := Memref.whole cc0_scratch0

/-- The scoped buffers no window stages are the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- A buffer whose LAST store filled it whole reads back as that store's value, whatever was stored before. -/
theorem read_last_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

end Cert.KernelIdeal.Fr

end
-- ==== Proof.KiRuns.lean ====
/-
  The body's run at a grid point, in its three cases.  Each of its stores fills a buffer whole, so what a buffer
  holds afterwards is the value of the last store into it: the accumulator ends at acc + S (S the column-group
  sums of the exponentials; acc is the zero array where the inner coordinate is 0), and where the inner
  coordinate is 7 the result window's buffer ends at the accumulator's column sums.
-/
import proofs.«134628_j33139967656579_2_alg».proof.Proof.KiBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem zero2 : (![0, 0] : Fin 2 → Nat) = fun _ => 0 := by funext a; fin_cases a <;> rfl

set_option maxHeartbeats 1000000 in
/-- In the middle of an inner sweep (neither branch taken) the accumulator gains the point's sums; the result window's buffer is untouched. -/
theorem run_mid (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : ¬condZero i) (hl : ¬condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

set_option maxHeartbeats 1000000 in
/-- At the first point of an inner sweep the accumulator is zeroed first, whatever it held: it ends at the point's sums over zero. -/
theorem run_first (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : condZero i) (hl : ¬condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

set_option maxHeartbeats 1000000 in
/-- At the last point of an inner sweep the accumulator gains the point's sums and its column sums are stored into the result window's buffer, whatever that held. -/
theorem run_last (c : Dev nD) (i : grid0.Coords)
    (arg2 : Memref sig .tc .vmem S2048x128 .bf16) (harg2 : arg2.IsWhole) (arg3 : Memref sig .tc .vmem S2048x128 .bf16) (harg3 : arg3.IsWhole)
    (arg4 : Memref sig .tc .vmem S1x2048 .f32) (harg4 : arg4.IsWhole) (arg5 : Memref sig .tc .vmem S8x2048 .f32) (harg5 : arg5.IsWhole)
    (hz : ¬condZero i) (hl : condLast i)
    (x0 x1 : Vec F S2048x128 .bf16) (xo : Vec F S1x2048 .f32) (xs : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hz | exact hl)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; swap; · iexact HO
    ipureintro
    try sl_unfold_words
    rw [read_last_whole _ _ zero2]
    simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]
  iexists _; isplitr; swap; · iexact HS
  ipureintro
  try sl_unfold_words
  rw [read_last_whole _ _ zero2]
  simp only [View.readAt_eq_ld, harg2.read_unread, harg3.read_unread, harg4.read_unread, harg5.read_unread,
      View.ld_unit_zero (S := S2048x128) zero2, View.ld_unit_zero (S := S8x2048) zero2, View.ld_unit_zero (S := S1x2048) zero2,
      View.readCov_unit_zero (S := S8x2048) _ zero2, View.readCov_unit_zero (S := S1x2048) _ zero2]

end Cert.KernelIdeal.Fr

end
-- ==== Proof.KiData.lean ====
/-
  The proof data of the region and the body obligation.

  After the body at point n the accumulator holds A(n): the point's column-group sums added to A(n-1), or to the
  zero array where n is the first point of an inner sweep (n = 0 mod 8).  The invariant between points is the
  accumulator owned at A(n-1) (at anything before the first point).  The input windows' buffers hold their blocks
  and are left alone; the result window's buffer is written only at the last point of a sweep (n = 7 mod 8),
  with the accumulator's column sums, and handed back untouched elsewhere.  Window 0 and window 1 read one
  array: each holds half of it.
-/
import proofs.«134628_j33139967656579_2_alg».proof.Proof.KiRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The accumulator after the body at point n. -/
def accAt (c : Dev nD) : (n : ℕ) → n < cfg0.N → Vec F S8x2048 .f32
  | 0, h => k0_pay2 (blkAt m c 0 ⟨0, h⟩) (blkAt m c 1 ⟨0, h⟩) (k0_pay1 (F := F))
  | n + 1, h =>
    if (n + 1) % 8 = 0 then k0_pay2 (blkAt m c 0 ⟨n + 1, h⟩) (blkAt m c 1 ⟨n + 1, h⟩) (k0_pay1 (F := F))
    else k0_pay2 (blkAt m c 0 ⟨n + 1, h⟩) (blkAt m c 1 ⟨n + 1, h⟩) (accAt c n (Nat.lt_of_succ_lt h))

/-- At the first point of a sweep the accumulator restarts from zero; -/
theorem accAt_first (c : Dev nD) (t : Fin cfg0.N) (h : t.val % 8 = 0) :
    accAt m c t.val t.isLt = k0_pay2 (blkAt m c 0 t) (blkAt m c 1 t) (k0_pay1 (F := F)) := by
  obtain ⟨n, hn⟩ := t
  cases n with
  | zero => rfl
  | succ n => exact if_pos h

/-- elsewhere it continues from the point before. -/
theorem accAt_next (c : Dev nD) (t : Fin cfg0.N) (h : ¬t.val % 8 = 0) :
    accAt m c t.val t.isLt = k0_pay2 (blkAt m c 0 t) (blkAt m c 1 t) (accAt m c (t.val - 1) (Nat.lt_of_le_of_lt (Nat.sub_le _ _) t.isLt)) := by
  obtain ⟨n, hn⟩ := t
  cases n with
  | zero => exact absurd (Nat.zero_mod _) h
  | succ n => exact if_neg h

/-- The invariant before position n: the accumulator at anything before the first point, then at what the point
    before left in it. -/
def PhiS (c : Dev nD) : (n : ℕ) → n ≤ cfg0.N → sProp 𝕄
  | 0, _ => iprop(∃ d, owns (c : Thread nD τ) accM fullShare d)
  | n + 1, hn => owns (c : Thread nD τ) accM fullShare (accAt m c n hn)

theorem PhiS_zero (c : Dev nD) (n : ℕ) (h : n ≤ cfg0.N) (hz : n = 0) :
    PhiS m c n h = iprop(∃ d, owns (c : Thread nD τ) accM fullShare d) := by subst hz; rfl
theorem PhiS_succ (c : Dev nD) (n : ℕ) (hn : n < cfg0.N) :
    PhiS m c (n + 1) hn = owns (c : Thread nD τ) accM fullShare (accAt m c n hn) := rfl
theorem PhiS_pos (c : Dev nD) (n : ℕ) (h : n ≤ cfg0.N) (hz : n ≠ 0) :
    PhiS m c n h = owns (c : Thread nD τ) accM fullShare (accAt m c (n - 1) (by omega)) := by
  cases n with
  | zero => exact absurd rfl hz
  | succ n => rfl

/-- Whatever the position, the invariant holds the accumulator at some contents. -/
theorem PhiS_some (c : Dev nD) (n : ℕ) (h : n ≤ cfg0.N) : PhiS m c n h ⊢ iprop(∃ d, owns (c : Thread nD τ) accM fullShare d) := by
  cases n with
  | zero => exact .rfl
  | succ n => rw [PhiS_succ]; iintro H; iexists _; iexact H

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => blkAt m c 0 t
    | ⟨1, _⟩ => blkAt m c 1 t
    | ⟨2, _⟩ => k0_pay3 (accAt m c t.val t.isLt)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = blkAt m c 0 t := by dsimp only [dats]
theorem after1 (c : Dev nD) (t : Fin cfg0.N) : (dats m 0 c).after 1 t = blkAt m c 1 t := by dsimp only [dats]
theorem after2 (c : Dev nD) (t : Fin cfg0.N) : (dats m 0 c).after 2 t = k0_pay3 (accAt m c t.val t.isLt) := by dsimp only [dats]
theorem before0 (c : Dev nD) (t : Fin cfg0.N) (d) : (dats m 0 c).before 0 t d = blkAt m c 0 t :=
  before0_of m (dats m 0 c) (A_eq m c 0) (after0 m c) t d
theorem before1 (c : Dev nD) (t : Fin cfg0.N) (d) : (dats m 0 c).before 1 t d = blkAt m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the point's residue mod 8 says which case it is in; the invariant hands the body the
    accumulator and takes it back at this point's contents; the inputs are handed back as found, and so is the
    result window's buffer except at the last point of a sweep. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, Phi_castSucc]
  rw [show (dats m 0 c).leavesExact 0 t = owns (c : Thread nD τ) (mr0 t) fullShare ((dats m 0 c).after 0 t) from by
    unfold Dat.leavesExact; rw [live0], after0]
  rw [show (dats m 0 c).leavesExact 1 t = owns (c : Thread nD τ) (mr1 t) fullShare ((dats m 0 c).after 1 t) from by
    unfold Dat.leavesExact; rw [live1], after1]
  have hN : t.val < 64 := lt_of_lt_of_eq t.isLt (show cfg0.N = 64 from N_0)
  by_cases hl : t.val % 8 = 7
  · have hz : ¬t.val % 8 = 0 := by omega
    rw [show (dats m 0 c).leavesExact 2 t = owns (c : Thread nD τ) (mr2 t) fullShare ((dats m 0 c).after 2 t) from by
      unfold Dat.leavesExact; rw [live2_of t ((condLast_iff t).mpr hl)], after2, accAt_next m c t hz]
    rw [PhiS_pos m c _ _ (by omega)]
    iintro ⟨HS, Ho, ⟨%d0, H0⟩, ⟨%d1, H1⟩, ⟨%d2, H2⟩⟩
    iapply (run_last c (grid0.coords t) _ _ _ _ _ _ _ _ (fun h => hz ((condZero_iff t).mp h)) ((condLast_iff t).mpr hl)
      (blkAt m c 0 t) (blkAt m c 1 t) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [Dat.leavesExact_idle (dats m 0 c) 2 t (idle2_of t (fun h => hl ((condLast_iff t).mp h))) (noFlush2_of t (fun h => hl ((condLast_iff t).mp h)))]
    by_cases hz : t.val % 8 = 0
    · rw [accAt_first m c t hz]
      iintro ⟨HS, Ho, ⟨%d0, H0⟩, ⟨%d1, H1⟩, ⟨%d2, H2⟩⟩
      ihave HS' := (PhiS_some m c _ _) $$ HS
      icases HS' with ⟨%xs, HS⟩
      iapply (run_first c (grid0.coords t) _ _ _ _ _ _ _ _ ((condZero_iff t).mpr hz) (fun h => hl ((condLast_iff t).mp h))
        (blkAt m c 0 t) (blkAt m c 1 t) _ xs Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · rw [accAt_next m c t hz, PhiS_pos m c _ _ (by omega)]
      iintro ⟨HS, Ho, ⟨%d0, H0⟩, ⟨%d1, H1⟩, ⟨%d2, H2⟩⟩
      iapply (run_mid c (grid0.coords t) _ _ _ _ _ _ _ _ (fun h => hz ((condZero_iff t).mp h)) (fun h => hl ((condLast_iff t).mp h))
        (blkAt m c 0 t) (blkAt m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.scopedRest (Ix := Unit) (Name := ℕ) (U := UR sig nD τ) (Lvl := ℕ) (Val := Elt F) spec0 c ⊢ (dats m 0 c).Φ 0 := by
  rw [scopedRest_acc, show (dats m 0 c).Φ 0 = PhiS m c 0 (Nat.zero_le _) from rfl, PhiS_zero m c 0 _ rfl]

/-- and after the last point the invariant gives it back. -/
theorem hout (c : Dev nD) : (dats m 0 c).Φ (Fin.last cfg0.N) ⊢ Pipeline.scopedRest (Ix := Unit) (Name := ℕ) (U := UR sig nD τ) (Lvl := ℕ) (Val := Elt F) spec0 c := by
  rw [scopedRest_acc, show (dats m 0 c).Φ (Fin.last cfg0.N) = PhiS m c (Fin.last cfg0.N).val (Nat.le_of_lt_succ (Fin.last cfg0.N).isLt) from rfl]
  exact PhiS_some m c _ _

end Cert.KernelIdeal.Fr

end
-- ==== Proof.KiRun.lean ====
/-
  The run of the idealized kernel's program: every weakly fair execution of @main ends, nothing faulting, with
  the region's arrays at what the write-backs leave and every other unscoped buffer at what the fourteen later
  host operations compute from the contents at the region's exit.

  The converted input is read by two windows.  On entering the region its full ownership is cut in two halves,
  one per window; both windows are inputs, so both end holding the array as they found it, and on leaving the
  region the halves are joined again.  The later host operations write neither the converted input nor the
  region's result, so the cut can be made once more at the very end.
-/
import proofs.«134628_j33139967656579_2_alg».proof.Proof.KiData
import proofs.«134628_j33139967656579_2_alg».proof.Proof.LibSharedAround

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer held whole is its two halves, and back. -/
theorem split_full (ℓ : Loc nD τ sig) (f : Buf (Elt F) ℓ) :
    (ℓ ↦{fullShare} f : sProp 𝕄) ⊣⊢ iprop((ℓ ↦{fullShare.left} f) ∗ ℓ ↦{fullShare.right} f) :=
  pointsTo_share (by rw [PosShare.left_op_right]; exact Part.mem_some _)

/-- The buffers behind the windows' arrays are two: the converted input and the region's result. -/
theorem arrBufs_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v0) ↦{fullShare} Vb main_v0) ∗ (((c : Thread nD τ).loc main_v1) ↦{fullShare} Vb main_v1)) := by
  unfold Pipeline.arrBufs
  exact bigSep_eq_bigSepL_of_eq [main_v0, main_v1] (by decide) (by decide) _

/-- The proof data's arrays, at contents that agree on the two windows of the converted input, are the two
    buffers behind them held whole: the input's two halves joined, or its whole cut in two. -/
theorem arrays_iff (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v0) (h1 : Fw 1 = Vb main_v0) (h2 : Fw 2 = Vb main_v1) :
    ((dats m 0 c).arrays Fw : sProp 𝕄) ⊣⊢ Pipeline.arrBufs (Ix := Unit) (Name := ℕ) (U := UR sig nD τ) (Lvl := ℕ) spec0 c Vb := by
  have e0 : ((cfg0.win 0).arr.view.loc (c : Thread nD τ) ↦[(cfg0.win 0).arr.view.set]{(dats m 0 c).share 0} Fw 0 : sProp 𝕄)
      = ((c : Thread nD τ).loc main_v0 ↦{fullShare.left} Vb main_v0) := by
    rw [(arr_whole0 0).set_eq_univ, h0]; rfl
  have e1 : ((cfg0.win 1).arr.view.loc (c : Thread nD τ) ↦[(cfg0.win 1).arr.view.set]{(dats m 0 c).share 1} Fw 1 : sProp 𝕄)
      = ((c : Thread nD τ).loc main_v0 ↦{fullShare.right} Vb main_v0) := by
    rw [(arr_whole0 1).set_eq_univ, h1]; rfl
  have e2 : ((cfg0.win 2).arr.view.loc (c : Thread nD τ) ↦[(cfg0.win 2).arr.view.set]{(dats m 0 c).share 2} Fw 2 : sProp 𝕄)
      = ((c : Thread nD τ).loc main_v1 ↦{fullShare} Vb main_v1) := by
    rw [(arr_whole0 2).set_eq_univ, h2]; rfl
  rw [arrBufs_eq]
  unfold Dat.arrays
  rw [bigSep_W0, e0, e1, e2]
  constructor
  · iintro ⟨Ha, Hb, Hc⟩
    isplitl [Ha Hb]
    · iapply (split_full ((c : Thread nD τ).loc main_v0) (Vb main_v0)).2
      isplitl [Ha] <;> iassumption
    · iexact Hc
  · iintro ⟨Hab, Hc⟩
    ihave H := (split_full ((c : Thread nD τ).loc main_v0) (Vb main_v0)).1 $$ Hab
    icases H with ⟨Ha, Hb⟩
    isplitl [Ha]; · iexact Ha
    isplitl [Hb] <;> iassumption

/-! ## The contents on leaving the region -/

/-- Core c's buffers on leaving the region: as on entering it, except the result array, at what the write-backs
    of all grid points left in it. -/
def Wx (c : Dev nD) : Valuation τ sig (Elt F) :=
  Function.update (V0 m c) (Proc.devRef .tc main_v1) ((dats m 0 c).arrAt 2 cfg0.N)

theorem Wx_v1 (c : Dev nD) : Wx m c (Proc.devRef .tc main_v1) = (dats m 0 c).arrAt 2 cfg0.N := by
  unfold Wx; exact Function.update_self ..
theorem Wx_of_ne (c : Dev nD) (b : Ref sig .tc) (hb : b ≠ main_v1) : Wx m c (Proc.devRef .tc b) = V m c b := by
  unfold Wx; exact Function.update_of_ne (fun e => hb (Proc.devRef_injective _ e)) _ _

/-- None of the later host operations writes the converted input, the region's result, or the program's argument. -/
theorem keeps (b : Ref sig .tc) (hb : b = main_v0 ∨ b = main_v1 ∨ b = main_arg0) :
    ∀ op ∈ (hostOps1 : List (HloOp τ sig (Elt F))), Proc.devRef .tc b ∉ op.writes := by
  intro op hop
  simp only [hostOps1, List.mem_cons, List.mem_nil_iff, or_false] at hop
  rcases hb with rfl | rfl | rfl <;>
  rcases hop with rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem after_keeps (b : Ref sig .tc) (hb : b = main_v0 ∨ b = main_v1 ∨ b = main_arg0) (Wv : Valuation τ sig (Elt F)) :
    StableHlo.after hostOps1 Wv (Proc.devRef .tc b) = Wv (Proc.devRef .tc b) :=
  StableHlo.after_of_forall_not_mem (b := Proc.devRef .tc b) hostOps1 Wv (keeps b hb)

/-- The input windows end holding the converted input as the region found it. -/
theorem arrAt0 (c : Dev nD) (n : ℕ) : (dats m 0 c).arrAt 0 n = V m c main_v0 := ((dats m 0 c).arrAt_in 0 rfl n).trans (A_eq m c 0)
theorem arrAt1 (c : Dev nD) (n : ℕ) : (dats m 0 c).arrAt 1 n = V m c main_v0 := ((dats m 0 c).arrAt_in 1 rfl n).trans (A_eq m c 1)

theorem hsplit (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) :=
  (arrays_iff m c (fun b => V0 m c (Proc.devRef .tc b)) ((dats m 0 c).arrAt · 0) (arrAt0 m c 0) (arrAt1 m c 0) (A_eq m c 2)).2

theorem hmerge (c : Dev nD) :
    (dats m 0 c).arrays ((dats m 0 c).arrAt · cfg0.N)
      ⊢ (Pipeline.arrBufs (Ix := Unit) (Name := ℕ) (U := UR sig nD τ) (Lvl := ℕ) spec0 c (fun b => Wx m c (Proc.devRef .tc b)) : sProp 𝕄) :=
  (arrays_iff m c (fun b => Wx m c (Proc.devRef .tc b)) ((dats m 0 c).arrAt · cfg0.N)
    ((arrAt0 m c _).trans (Wx_of_ne m c main_v0 (by decide)).symm) ((arrAt1 m c _).trans (Wx_of_ne m c main_v0 (by decide)).symm) (Wx_v1 m c).symm).1

theorem hsplitN (c : Dev nD) :
    (Pipeline.arrBufs (Ix := Unit) (Name := ℕ) (U := UR sig nD τ) (Lvl := ℕ) spec0 c (fun b => StableHlo.after hostOps1 (Wx m c) (Proc.devRef .tc b)) : sProp 𝕄)
      ⊢ (dats m 0 c).arrays ((dats m 0 c).arrAt · cfg0.N) :=
  (arrays_iff m c (fun b => StableHlo.after hostOps1 (Wx m c) (Proc.devRef .tc b)) ((dats m 0 c).arrAt · cfg0.N)
    (((arrAt0 m c _).trans (Wx_of_ne m c main_v0 (by decide)).symm).trans (after_keeps main_v0 (.inl rfl) _).symm)
    (((arrAt1 m c _).trans (Wx_of_ne m c main_v0 (by decide)).symm).trans (after_keeps main_v0 (.inl rfl) _).symm)
    ((Wx_v1 m c).symm.trans (after_keeps main_v1 (.inr (.inl rfl)) _).symm)).2

theorem hW (c : Dev nD) : ∀ b ∈ Pipeline.restRefs sig spec0, Wx m c (Proc.devRef .tc b) = V0 m c (Proc.devRef .tc b) := fun b hb =>
  Wx_of_ne m c b (fun e => (Finset.mem_sdiff.mp hb).2 (Finset.mem_image.mpr ⟨2, Finset.mem_univ _, e.symm⟩))

/-! ## The run -/

set_option backward.isDefEq.respectTransparency.types false in
theorem run_main : θ_run defs (onTc (τ := τ) (main (F := F))) (s₀ m ρ)
    (fun r => ∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = StableHlo.after hostOps1 (Wx m c) (Proc.devRef .tc b)) :=
  Cert.LibSharedAround.θ_run_around_shared cfgs (dats m) (0 : Fin 1) defs₀ Variants.none cellOf_inj winFacts₀0 block_pos0 arr_whole0 stage_whole0
    m ρ main (fun c => (body_obligation m c).loose) (fun _ _ => rfl) (V0 m) (Wx m) hostOps1
    (fun op h => (List.forall_iff_forall_mem.mp hostOps1_sub) op h) (fun op h => (List.forall_iff_forall_mem.mp hostOps1_fresh) op h)
    (hmain m Variants.none) (hsplit m) (hmerge m) (hW m) (hsplitN m) (hin m) (hout m)

/-- The program's argument is no window's array and is written by no host operation: it ends as launched. -/
theorem arg0_kept (c : Dev nD) : StableHlo.after hostOps1 (Wx m c) (Proc.devRef .tc main_arg0) = m ((c : Thread nD τ).loc main_arg0) :=
  (after_keeps main_arg0 (.inr (.inr rfl)) _).trans ((Wx_of_ne m c main_arg0 (by decide)).trans
    (StableHlo.after_of_forall_not_mem (b := Proc.devRef .tc main_arg0) (List.flatten [hostOps0]) (fun b => m (c, b)) (by
      intro op hop
      simp only [hostOps0, List.flatten_cons, List.flatten_nil, List.append_nil, List.mem_cons, List.mem_nil_iff, or_false] at hop
      rcases hop with rfl
      simp only [StableHlo.unary_writes, Finset.mem_singleton]
      exact StableHlo.devRef_ne_of_ne (by decide))))

theorem arg0_rest : main_arg0 ∈ Pipeline.restRefs sig spec0 := Pipeline.mem_restRefs_of main_arg0 rfl (by decide)
theorem v11_rest : main_v11 ∈ Pipeline.restRefs sig spec0 := Pipeline.mem_restRefs_of main_v11 rfl (by decide)

/-- The frame: @main runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (arg0_kept m c)) (run_main m ρ)

end Cert.KernelIdeal.Fr

end
-- ==== Proof.Spec.lean ====
/-
  The loss both programs compute, as one function of the 16384 x 128 input matrix over the extended reals.

  Write x_a for row a, <x_a, x_b> for the inner product of two rows, tau for the temperature and c for its
  reciprocal.  Column b of the matrix exp(<x_a, x_b> * c) sums to the denominator D_b; row i's squared norm
  divided by tau is the logarithm of its numerator; the loss is minus the mean over i of
  (|x_i|^2 / tau - log D_i).
-/
import Idealize.ShloMosaic.PureOps.Ideal
import Idealize.ShloMosaic.Lib.ValueIdx

noncomputable section

namespace Cert.Spec

open Idealize.ShloMosaic Idealize.ShloMosaic.ValueIdx
open scoped BigOperators

/-- The input: 16384 rows of 128 extended reals. -/
abbrev Mat : Type := (⟨2, ![16384, 128]⟩ : Shape).Idx → EReal

/-- The temperature, the dyadic rational its 32-bit pattern denotes. -/
def tau : EReal := Ideal.ofBits .f32 0x3D8F5C29#32

/-- The reciprocal of the temperature, as an exact rational. -/
def invTau : EReal := ((134217728 / 9395241 : ℝ) : EReal)

/-- The number of rows, as the extended real its 32-bit pattern denotes. -/
def rows : EReal := Ideal.ofBits .f32 0x46800000#32

/-- The inner product of rows a and b. -/
def gram (x : Mat) (a b : Fin 16384) : EReal := ∑ k : Fin 128, x (ix2 a k) * x (ix2 b k)

/-- The denominator of column b: the sum over all rows a of exp(<x_a, x_b> * c). -/
def denom (x : Mat) (b : Fin 16384) : EReal := ∑ a : Fin 16384, Ideal.exp (gram x a b * invTau)

/-- The logarithm of row i's numerator: its squared norm over the temperature. -/
def logNum (x : Mat) (i : Fin 16384) : EReal := Ideal.div (∑ k : Fin 128, x (ix2 i k) * x (ix2 i k)) tau

/-- The loss: minus the mean over the rows of log(numerator) - log(denominator). -/
def loss (x : Mat) : EReal := - Ideal.div (∑ i : Fin 16384, (logNum x i - Ideal.log (denom x i))) rows

end Cert.Spec

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.LibSumBlocks.lean ====
/-
  A sum over 16384 positions taken block by block: eight blocks of 2048 consecutive positions.

  Over any commutative additive monoid (the extended reals among them) the sum of f over the 16384 positions is the
  sum over the eight blocks of the sums inside each block; and the running total of the first blocks, taken one block
  at a time, reaches the whole sum after the eighth. No finiteness is needed: only commutativity and associativity of
  the addition. Imports only the library.
-/
import Idealize.ShloMosaic.PureOps.Ideal

noncomputable section

namespace Cert.LibSumBlocks

open scoped BigOperators

/-- Position p·2048 + r of block p, offset r. -/
def blockEquiv : Fin 8 × Fin 2048 ≃ Fin 16384 where
  toFun pr := ⟨pr.1.val * 2048 + pr.2.val, by omega⟩
  invFun n := (⟨n.val / 2048, by omega⟩, ⟨n.val % 2048, by omega⟩)
  left_inv := by
    rintro ⟨p, r⟩
    refine Prod.ext (Fin.ext ?_) (Fin.ext ?_)
    · show (p.val * 2048 + r.val) / 2048 = p.val
      omega
    · show (p.val * 2048 + r.val) % 2048 = r.val
      omega
  right_inv := by
    intro n
    refine Fin.ext ?_
    show n.val / 2048 * 2048 + n.val % 2048 = n.val
    omega

/-- The sum over all positions is the sum over the blocks of the sums inside the blocks. -/
theorem sum_blocks {M : Type} [AddCommMonoid M] (f : Fin 16384 → M) :
    ∑ n : Fin 16384, f n = ∑ p : Fin 8, ∑ r : Fin 2048, f ⟨p.val * 2048 + r.val, by omega⟩ := by
  rw [← blockEquiv.sum_comp f, Fintype.sum_prod_type]
  rfl

/-- The sum of f inside block p, for p a natural number; zero past the eighth block. -/
def blk {M : Type} [AddCommMonoid M] (f : Fin 16384 → M) (p : ℕ) : M :=
  if hp : p < 8 then ∑ r : Fin 2048, f ⟨p * 2048 + r.val, by omega⟩ else 0

theorem blk_of_lt {M : Type} [AddCommMonoid M] (f : Fin 16384 → M) {p : ℕ} (hp : p < 8) :
    blk f p = ∑ r : Fin 2048, f ⟨p * 2048 + r.val, by omega⟩ := dif_pos hp

/-- After the eighth block the running total is the whole sum. -/
theorem sum_range_blk {M : Type} [AddCommMonoid M] (f : Fin 16384 → M) :
    ∑ p ∈ Finset.range 8, blk f p = ∑ n : Fin 16384, f n := by
  rw [Finset.sum_range, sum_blocks]
  exact Finset.sum_congr rfl fun p _ => dif_pos p.isLt

end Cert.LibSumBlocks

end
-- ==== Proof.PayIdeal.lean ====
/-
  The arithmetic of the denominator kernel's body on the extended reals, entry by entry.

  At one grid point the body holds a block of 2048 rows u_0 … u_2047 of the input (the rows being summed over), a block of
  2048 rows w_0 … w_2047 (the columns whose denominators are being formed) and an 8 x 2048 accumulator A.  It forms the
  2048 x 2048 matrix E(r, b) = exp(<u_r, w_b> * c), c the reciprocal of the temperature, cuts its rows into 256 groups
  of 8 consecutive rows, adds the groups together (row s of the result collects the rows r = 8g + s of E), and adds that
  8 x 2048 partial sum to A.  The first step along the summation axis starts from A = 0; the last one adds the 8 rows of
  A into one row of 2048 column sums.  Over the 8 steps, the 8 rows of A and the 256 groups, every row 2048 i + 8 g + s
  of the input is met exactly once: that is the regrouping of the sum over all 16384 rows proved here.  Only
  commutativity and associativity of addition are used, so nothing here needs the entries to be finite.
-/
import proofs.«134628_j33139967656579_2_alg».proof.Proof.Gen.KernelIdeal.Skeleton
import proofs.«134628_j33139967656579_2_alg».proof.Proof.Spec
import proofs.«134628_j33139967656579_2_alg».proof.Proof.LibRowOps
import proofs.«134628_j33139967656579_2_alg».proof.Proof.LibColReduce
import proofs.«134628_j33139967656579_2_alg».proof.Proof.LibSumBlocks
import Idealize.ShloMosaic.Lib.ValueLayout

noncomputable section

open scoped BigOperators

namespace Cert.PayIdeal

open Idealize.ShloMosaic Idealize.ShloMosaic.ValueIdx Cert.KernelIdeal Cert.KernelIdeal.Gen

/-- The kernel's named reciprocal of the temperature is, on the extended reals, the rational the specification uses. -/
theorem named_invTau :
    Named.named (F := Ideal) Cert.KernelIdeal.κ "inv_tau" (φ := .f32) 0x41649249#32 = Cert.Spec.invTau :=
  IdealRules.named_const.ideal_named_scalar _ _ _ _ rfl

/-- The accumulator's starting value: zero at every entry. -/
theorem pay1_apply (s : Fin 8) (b : Fin 2048) : Cert.KernelIdeal.Gen.k0_pay1 (F := Ideal) (ix2 s b) = 0 := by
  unfold Cert.KernelIdeal.Gen.k0_pay1
  rw [shapeCast_self]
  exact Ideal.ofBits_zero_f32

/-- The last step's row of column sums: entry b is the sum of column b of the accumulator over its 8 rows. -/
theorem pay3_apply (v21 : Vec Ideal S8x2048 .f32) (b : Fin 2048) :
    Cert.KernelIdeal.Gen.k0_pay3 v21 (ix2 (0 : Fin 1) b) = ∑ s : Fin 8, v21 (ix2 s b) := by
  unfold Cert.KernelIdeal.Gen.k0_pay3
  refine (shapeCast_a_1a_apply _ _ (0 : Fin 1) b).trans ?_
  exact Cert.Lib.colAdd_apply v21 _ _ _ b

/-- Row r = 8 g + s of a block of 2048 rows, as the pair (s, g): 8 rows s inside each of 256 groups g. -/
def laneEquiv : Fin 8 × Fin 256 ≃ Fin 2048 where
  toFun sg := ⟨8 * sg.2.val + sg.1.val, by omega⟩
  invFun r := (⟨r.val % 8, by omega⟩, ⟨r.val / 8, by omega⟩)
  left_inv := by
    rintro ⟨s, g⟩
    refine Prod.ext (Fin.ext ?_) (Fin.ext ?_)
    · show (8 * g.val + s.val) % 8 = s.val
      omega
    · show (8 * g.val + s.val) / 8 = g.val
      omega
  right_inv := by
    intro r
    refine Fin.ext ?_
    show 8 * (r.val / 8) + r.val % 8 = r.val
    omega

/-- A sum over the 2048 rows of a block is the sum over the 8 rows inside a group of the sums over the 256 groups. -/
theorem sum_lanes {M : Type} [AddCommMonoid M] (h : Fin 2048 → M) :
    ∑ r : Fin 2048, h r = ∑ s : Fin 8, ∑ g : Fin 256, h ⟨8 * g.val + s.val, by omega⟩ := by
  rw [← laneEquiv.sum_comp h, Fintype.sum_prod_type]
  rfl

/-- The regrouping: the 8 blocks i, the 8 accumulator rows s and the 256 groups g meet every one of the 16384 rows
    2048 i + 8 g + s exactly once. -/
theorem regroup {M : Type} [AddCommMonoid M] (f : Fin 16384 → M) :
    ∑ i : Fin 8, ∑ s : Fin 8, ∑ g : Fin 256, f ⟨2048 * i.val + 8 * g.val + s.val, by omega⟩ = ∑ a : Fin 16384, f a := by
  rw [Cert.LibSumBlocks.sum_blocks f]
  refine Finset.sum_congr rfl fun i _ => ?_
  rw [sum_lanes fun r => f ⟨i.val * 2048 + r.val, by omega⟩]
  refine Finset.sum_congr rfl fun s _ => Finset.sum_congr rfl fun g _ => congrArg f (Fin.ext ?_)
  show 2048 * i.val + 8 * g.val + s.val = i.val * 2048 + (8 * g.val + s.val)
  omega

/-! ## One step of the accumulation -/

/-- Entry (p, q) of the product of the two blocks reads row p of the first block: its own row coordinate. -/
theorem dot_lhs0 (i : S2048x2048.Idx) (q : dot_S2048x128_S2048x128_S2048x2048_1_1_0_0_n_n.contr.Idx) :
    (dot_S2048x128_S2048x128_S2048x2048_1_1_0_0_n_n.lhsIdx i q 0).val = (i 0).val := by
  unfold DotDims.lhsIdx
  rw [dif_neg (show ¬(0 : Fin S2048x128.rank) ∈ dot_S2048x128_S2048x128_S2048x2048_1_1_0_0_n_n.lhsBatch by decide),
    dif_pos (show (0 : Fin S2048x128.rank) ∈ dot_S2048x128_S2048x128_S2048x2048_1_1_0_0_n_n.lhsNonContracting by decide)]
  rfl

/-- … and row q of the second block: its column coordinate (the second block enters transposed). -/
theorem dot_rhs0 (i : S2048x2048.Idx) (q : dot_S2048x128_S2048x128_S2048x2048_1_1_0_0_n_n.contr.Idx) :
    (dot_S2048x128_S2048x128_S2048x2048_1_1_0_0_n_n.rhsIdx i q 0).val = (i 1).val := by
  unfold DotDims.rhsIdx
  rw [dif_neg (show ¬(0 : Fin S2048x128.rank) ∈ dot_S2048x128_S2048x128_S2048x2048_1_1_0_0_n_n.rhsBatch by decide),
    dif_pos (show (0 : Fin S2048x128.rank) ∈ dot_S2048x128_S2048x128_S2048x2048_1_1_0_0_n_n.rhsNonContracting by decide)]
  rfl

/-- The matrix of exponentials: entry (r, b) is exp(<u_r, w_b> * c), with c the reciprocal of the temperature. -/
theorem gramExp_apply (v3 v5 : FVec Ideal S2048x128 .bf16) (r b : Fin 2048) :
    exp (mulf (matmul dot_S2048x128_S2048x128_S2048x2048_1_1_0_0_n_n none v3 v5 (constant (F := Ideal) S2048x2048 .f32 0x00000000#32))
        (broadcast S2048x2048 (Named.named (F := Ideal) Cert.KernelIdeal.κ "inv_tau" (φ := .f32) 0x41649249#32))) (ix2 r b)
      = Ideal.exp ((∑ k : Fin 128, v3 (ix2 r k) * v5 (ix2 b k)) * Cert.Spec.invTau) := by
  show Ideal.exp (matmul dot_S2048x128_S2048x128_S2048x2048_1_1_0_0_n_n none v3 v5 (constant (F := Ideal) S2048x2048 .f32 0x00000000#32) (ix2 r b)
    * Named.named (F := Ideal) Cert.KernelIdeal.κ "inv_tau" (φ := .f32) 0x41649249#32) = _
  rw [Cert.LibRow.matmul_zero_nt_ix2 dot_S2048x128_S2048x128_S2048x2048_1_1_0_0_n_n rfl rfl rfl rfl dot_lhs0 dot_rhs0, named_invTau]

/-- A [G, R, C] array summed over its leading axis: entry (s, b) of the result is the sum over g of the entries (g, s, b). -/
theorem groupAdd_apply {G R C : Nat} (src : FVec Ideal ⟨3, ![G, R, C]⟩ .f32)
    (h : Shape.Reduces (⟨3, ![G, R, C]⟩ : Shape) [0] ⟨2, ![R, C]⟩) (hφ : FKind.Formats .f32)
    (hacc : (0x00000000#32 : BitVec 32) = FKind.add.neutral .f32 hφ) (s : Fin R) (b : Fin C) :
    multiReduction .add [0] ⟨2, ![R, C]⟩ src 0x00000000#32 h hφ hacc (ix2 s b) = ∑ g : Fin G, src (ix3 g s b) :=
  (Ideal.multiReduction_add_single src _ h hφ hacc (ix2 s b)).trans
    (Finset.sum_congr rfl fun g _ => congrArg src (funext fun d => Fin.ext (by
      match d with
      | ⟨0, _⟩ => rfl
      | ⟨1, _⟩ => rfl
      | ⟨2, _⟩ => rfl)))

/-- The 2048 rows of a matrix cut into 256 groups of 8 consecutive rows: entry (g, s, b) of the recast array is the
    matrix's entry (8 g + s, b), both sitting at row-major position 2048 (8 g + s) + b. -/
theorem groups_apply {α : Type} (x : S2048x2048.Idx → α) (h : S2048x2048.ShapeCasts S256x8x2048)
    (g : Fin 256) (s : Fin 8) (b : Fin 2048) :
    shapeCast S256x8x2048 x h (ix3 g s b) = x (ix2 ⟨8 * g.val + s.val, by omega⟩ b) :=
  shapeCast_apply x h _ _ (by
    rw [Shape.rowMajor_val_three, Shape.rowMajor_val_two]
    show (8 * g.val + s.val) * 2048 + b.val = (g.val * 8 + s.val) * 2048 + b.val
    omega)

/-- One step: entry (s, b) of the new accumulator is the old entry plus, over the 256 groups g, the exponentials
    exp(<u_{8g+s}, w_b> * c) of the rows 8 g + s of the first block against row b of the second. -/
theorem pay2_apply (v3 v5 : Vec Ideal S2048x128 .bf16) (v13 : Vec Ideal S8x2048 .f32) (s : Fin 8) (b : Fin 2048) :
    Cert.KernelIdeal.Gen.k0_pay2 v3 v5 v13 (ix2 s b)
      = v13 (ix2 s b) + ∑ g : Fin 256, Ideal.exp
          ((∑ k : Fin 128, v3 (ix2 ⟨8 * g.val + s.val, by omega⟩ k) * v5 (ix2 b k)) * Cert.Spec.invTau) := by
  unfold Cert.KernelIdeal.Gen.k0_pay2
  simp only [shapeCast_self]
  refine congrArg (v13 (ix2 s b) + ·) ?_
  refine (groupAdd_apply _ _ _ _ s b).trans (Finset.sum_congr rfl fun g _ => ?_)
  exact (groups_apply _ _ g s b).trans (gramExp_apply v3 v5 _ b)

/-! ## The host's operations after the kernel -/

/-- What the host computes from the input x and the vector D of denominators the kernel returns: minus the quotient by
    the number of rows of the sum over the rows i of (the squared norm of row i divided by the temperature, minus log D_i). -/
def tail (x : FVec Ideal S16384x128 .f32) (D : FVec Ideal S16384 .f32) : FVec Ideal S_ .f32 :=
  Host.negf (F := Ideal) (Host.divf (F := Ideal)
    (Host.reduceAdd (F := Ideal)
      (subf
        (Host.divf (F := Ideal)
          (Host.reduceAdd (F := Ideal) (mulf x x) (constant (F := Ideal) S_ .f32 0x00000000#32)
            reducesTo_S16384x128_S16384_d1 h_S_)
          (broadcastInDim S16384 ![] bcast_S_S16384 (constant (F := Ideal) S_ .f32 0x3D8F5C29#32)))
        (Host.log (F := Ideal) D))
      (constant (F := Ideal) S_ .f32 0x00000000#32) reducesTo_S16384_S_d0 h_S_)
    (constant (F := Ideal) S_ .f32 0x46800000#32))

/-- The host's sum along each row of a 16384 x 128 matrix, started from zero: entry i is the sum of row i's entries. -/
theorem hostRowAdd_apply (y : FVec Ideal S16384x128 .f32) (i : Fin 16384) :
    Host.reduceAdd (F := Ideal) y (constant (F := Ideal) S_ .f32 0x00000000#32) reducesTo_S16384x128_S16384_d1 h_S_ (ix1 i)
      = ∑ k : Fin 128, y (ix2 i k) := by
  show Ideal.hostReduceAdd reducesTo_S16384x128_S16384_d1 y (Ideal.ofBits .f32 0x00000000#32) (ix1 i) = _
  refine (Ideal.hostReduceAdd_single reducesTo_S16384x128_S16384_d1 (by decide) y _ (ix1 i)).trans ?_
  rw [Ideal.ofBits_zero_f32, zero_add]
  exact Finset.sum_congr rfl fun k _ => congrArg y (funext fun a => Fin.ext (by
    match a with
    | ⟨0, _⟩ => rfl
    | ⟨1, _⟩ => rfl))

/-- An index of a vector of 16384 entries is its one coordinate. -/
def vecIdxEquiv : S16384.Idx ≃ Fin 16384 where
  toFun j := j 0
  invFun := ix1
  left_inv j := (eq_ix1 j).symm
  right_inv _ := rfl

/-- The host's sum of all 16384 entries of a vector, started from zero. -/
theorem hostTotalAdd_apply (z : FVec Ideal S16384 .f32) :
    Host.reduceAdd (F := Ideal) z (constant (F := Ideal) S_ .f32 0x00000000#32) reducesTo_S16384_S_d0 h_S_ ix0
      = ∑ i : Fin 16384, z (ix1 i) := by
  show Ideal.hostReduceAdd reducesTo_S16384_S_d0 z (Ideal.ofBits .f32 0x00000000#32) ix0 = _
  refine (Ideal.hostReduceAdd_total reducesTo_S16384_S_d0 (fun b => b.elim0) z _ ix0).trans ?_
  rw [Ideal.ofBits_zero_f32, zero_add]
  exact (vecIdxEquiv.symm.sum_comp z).symm

/-- The temperature spread over 16384 entries: every entry is the temperature. -/
theorem tauBroadcast_apply (i : Fin 16384) :
    broadcastInDim S16384 ![] bcast_S_S16384 (constant (F := Ideal) S_ .f32 0x3D8F5C29#32) (ix1 i) = Cert.Spec.tau :=
  broadcastInDim_apply _ bcast_S_S16384 (constant (F := Ideal) S_ .f32 0x3D8F5C29#32) (ix1 i) ix0 (fun a => a.elim0)

/-- When D holds the denominators, the host's result is the loss. -/
theorem tail_apply (x : FVec Ideal S16384x128 .f32) (D : FVec Ideal S16384 .f32)
    (hD : ∀ i : Fin 16384, D (ix1 i) = Cert.Spec.denom x i) : tail x D ix0 = Cert.Spec.loss x := by
  unfold tail Cert.Spec.loss
  refine congrArg (fun t => -(Ideal.div t Cert.Spec.rows)) ?_
  refine (hostTotalAdd_apply _).trans (Finset.sum_congr rfl fun i _ => ?_)
  show Ideal.div (Host.reduceAdd (F := Ideal) (mulf x x) (constant (F := Ideal) S_ .f32 0x00000000#32)
        reducesTo_S16384x128_S16384_d1 h_S_ (ix1 i))
      (broadcastInDim S16384 ![] bcast_S_S16384 (constant (F := Ideal) S_ .f32 0x3D8F5C29#32) (ix1 i))
    - Ideal.log (D (ix1 i)) = Cert.Spec.logNum x i - Ideal.log (Cert.Spec.denom x i)
  rw [hD i, hostRowAdd_apply, tauBroadcast_apply]
  rfl

end Cert.PayIdeal

end
-- ==== Proof.KiValue.lean ====
/-
  What the idealized kernel's region leaves in its result array, at the extended reals.

  Write x for the input matrix (the conversion to the narrow format is the identity here), and for rows a, b let
  e(a, b) = exp(<x_a, x_b> * c), c the reciprocal temperature.  At point t = 8 j + i window 0's block is rows
  2048 i + r and window 1's block is rows 2048 j + r of x, so after the body at that point the accumulator's
  entry (s, b) is the sum over i' <= i and over the 256 row groups g of e(2048 i' + 8 g + s, 2048 j + b).  At
  i = 7 the result block's entry b is the sum of that over the 8 accumulator rows s: every row a of x exactly
  once, which is the denominator of column 2048 j + b.  The result blocks written at the points i = 7 tile the
  1 x 16384 result array.
-/
import proofs.«134628_j33139967656579_2_alg».proof.Proof.KiRun
import proofs.«134628_j33139967656579_2_alg».proof.Proof.PayIdeal
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The input matrix on core c. -/
abbrev inp (c : Dev nD) : Cert.Spec.Mat := m ((c : Thread nD τ).loc main_arg0)

/-- A row number below 16384 as a row index (any natural number, reduced). -/
def row (a : ℕ) : Fin 16384 := ⟨a % 16384, Nat.mod_lt _ (by norm_num)⟩
theorem row_of_lt {a : ℕ} (h : a < 16384) : row a = ⟨a, h⟩ := Fin.ext (Nat.mod_eq_of_lt h)

/-- The program's argument reaches the region as launched; -/
theorem V_arg0 (c : Dev nD) : V m c main_arg0 = inp m c :=
  StableHlo.after_of_forall_not_mem (b := Proc.devRef .tc main_arg0) (List.flatten [hostOps0]) (fun b => m (c, b)) (by
    intro op hop
    simp only [hostOps0, List.flatten_cons, List.flatten_nil, List.append_nil, List.mem_cons, List.mem_nil_iff, or_false] at hop
    rcases hop with rfl
    simp only [StableHlo.unary_writes, Finset.mem_singleton]
    exact StableHlo.devRef_ne_of_ne (by decide))

/-- and the converted input is the input: a change of format is the identity. -/
theorem V_v0 (c : Dev nD) : (V m c main_v0 : S16384x128.Idx → EReal) = inp m c := by
  dsimp only [V, V0]
  simp only [hostOps0, List.flatten_cons, List.flatten_nil, List.append_nil]
  open StableHlo in after_results
  rfl

/-- The windows' block indices over the grid: window 0 follows the inner coordinate, windows 1 and 2 the outer. -/
theorem idx_facts : ∀ t : Fin cfg0.N, win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val / 8 :=
  (by decide +kernel : ∀ t : Fin grid0.N, _)

/-- Window 0's block at point t, entry (r, k), is the input at row 2048 (t mod 8) + r. -/
theorem blk0_apply (c : Dev nD) (t : Fin cfg0.N) (r : Fin 2048) (k : Fin 128) :
    (blkAt m c 0 t : S2048x128.Idx → EReal) (ix2 r k) = inp m c (ix2 (row (2048 * (t.val % 8) + r.val)) k) := by
  obtain ⟨e0, e1, -, -, -, -⟩ := idx_facts t
  have ht : t.val < 64 := lt_of_lt_of_eq t.isLt (show cfg0.N = 64 from N_0)
  unfold blkAt
  show V m c main_v0 (((cfg0.win 0).blk t).view.emb (ix2 r k)) = _
  rw [V_v0]
  refine congrArg (inp m c) ?_
  funext a; apply Fin.ext
  match a with
  | ⟨0, _⟩ =>
    show win0_0.index t (0 : Fin 2) * 2048 + 1 * r.val = (2048 * (t.val % 8) + r.val) % 16384
    rw [Nat.mod_eq_of_lt (by have := r.isLt; omega)]; omega
  | ⟨1, _⟩ => show win0_0.index t (1 : Fin 2) * 128 + 1 * k.val = k.val; omega

/-- Window 1's block at point t, entry (r, k), is the input at row 2048 (t div 8) + r. -/
theorem blk1_apply (c : Dev nD) (t : Fin cfg0.N) (r : Fin 2048) (k : Fin 128) :
    (blkAt m c 1 t : S2048x128.Idx → EReal) (ix2 r k) = inp m c (ix2 (row (2048 * (t.val / 8) + r.val)) k) := by
  obtain ⟨-, -, e0, e1, -, -⟩ := idx_facts t
  have ht : t.val < 64 := lt_of_lt_of_eq t.isLt (show cfg0.N = 64 from N_0)
  unfold blkAt
  show V m c main_v0 (((cfg0.win 1).blk t).view.emb (ix2 r k)) = _
  rw [V_v0]
  refine congrArg (inp m c) ?_
  funext a; apply Fin.ext
  match a with
  | ⟨0, _⟩ =>
    show win0_1.index t (0 : Fin 2) * 2048 + 1 * r.val = (2048 * (t.val / 8) + r.val) % 16384
    rw [Nat.mod_eq_of_lt (by have := r.isLt; omega)]; omega
  | ⟨1, _⟩ => show win0_1.index t (1 : Fin 2) * 128 + 1 * k.val = k.val; omega

/-- e(a, b): the exponential of the scaled inner product of rows a and b. -/
def ee (x : Cert.Spec.Mat) (a b : Fin 16384) : EReal := Ideal.exp (Cert.Spec.gram x a b * Cert.Spec.invTau)

/-- One point's contribution to the accumulator's entry (s, b): the sum over the 256 row groups. -/
def part (x : Cert.Spec.Mat) (i j : ℕ) (s : Fin 8) (b : Fin 2048) : EReal :=
  ∑ g : Fin 256, ee x (row (2048 * i + 8 * g.val + s.val)) (row (2048 * j + b.val))

/-- One point's sums, over blocks that are rows 2048 i + r and 2048 j + r of x. -/
theorem point_sum (x : Cert.Spec.Mat) (v3 v5 : Vec Ideal S2048x128 .bf16) (i j : ℕ)
    (h3 : ∀ (r : Fin 2048) (k : Fin 128), v3 (ix2 r k) = x (ix2 (row (2048 * i + r.val)) k))
    (h5 : ∀ (r : Fin 2048) (k : Fin 128), v5 (ix2 r k) = x (ix2 (row (2048 * j + r.val)) k)) (s : Fin 8) (b : Fin 2048) :
    ∑ g : Fin 256, Ideal.exp ((∑ k : Fin 128, v3 (ix2 ⟨8 * g.val + s.val, by omega⟩ k) * v5 (ix2 b k)) * Cert.Spec.invTau)
      = part x i j s b := by
  unfold part
  refine Finset.sum_congr rfl fun g _ => ?_
  unfold ee Cert.Spec.gram
  simp only [h3, h5]
  have e : 2048 * i + (8 * g.val + s.val) = 2048 * i + 8 * g.val + s.val := by omega
  rw [e]

/-- The accumulator after the body at point n, entry (s, b): the contributions of the sweep's points so far. -/
theorem accAt_apply (c : Dev nD) (s : Fin 8) (b : Fin 2048) : ∀ (n : ℕ) (hn : n < cfg0.N),
    (accAt m c n hn : S8x2048.Idx → EReal) (ix2 s b) = ∑ i ∈ Finset.range (n % 8 + 1), part (inp m c) i (n / 8) s b := by
  intro n
  induction n with
  | zero =>
    intro hn
    rw [show accAt m c 0 hn = _ from accAt_first m c ⟨0, hn⟩ rfl, Cert.PayIdeal.pay2_apply, Cert.PayIdeal.pay1_apply, zero_add,
      point_sum (inp m c) (blkAt m c 0 ⟨0, hn⟩) (blkAt m c 1 ⟨0, hn⟩) (0 % 8) (0 / 8) (blk0_apply m c ⟨0, hn⟩) (blk1_apply m c ⟨0, hn⟩) s b]
    simp only [Nat.zero_mod, Nat.zero_div, zero_add, Finset.range_one, Finset.sum_singleton]
  | succ n ih =>
    intro hn
    have hN : n + 1 < 64 := lt_of_lt_of_eq hn (show cfg0.N = 64 from N_0)
    have hpt := point_sum (inp m c) (blkAt m c 0 ⟨n + 1, hn⟩) (blkAt m c 1 ⟨n + 1, hn⟩) ((n + 1) % 8) ((n + 1) / 8)
      (blk0_apply m c ⟨n + 1, hn⟩) (blk1_apply m c ⟨n + 1, hn⟩) s b
    by_cases hz : (n + 1) % 8 = 0
    · rw [show accAt m c (n + 1) hn = _ from accAt_first m c ⟨n + 1, hn⟩ hz, Cert.PayIdeal.pay2_apply, Cert.PayIdeal.pay1_apply, zero_add, hpt, hz]
      simp only [zero_add, Finset.range_one, Finset.sum_singleton]
    · rw [show accAt m c (n + 1) hn = _ from accAt_next m c ⟨n + 1, hn⟩ hz, Cert.PayIdeal.pay2_apply, hpt]
      show (accAt m c n _ : S8x2048.Idx → EReal) (ix2 s b) + _ = _
      rw [ih (Nat.lt_of_succ_lt hn), Finset.sum_range_succ (fun i => part (inp m c) i ((n + 1) / 8) s b) ((n + 1) % 8)]
      have h1 : n % 8 + 1 = (n + 1) % 8 := by omega
      have h2 : n / 8 = (n + 1) / 8 := by omega
      rw [h1, h2]

/-! ## The result array -/

/-- At the last point of a sweep the result block's entry b is the denominator of column 2048 j + b: the 8
    accumulator rows, the 8 points of the sweep and the 256 row groups run through every row of x once. -/
theorem result_block (c : Dev nD) (t : Fin cfg0.N) (hl : t.val % 8 = 7) (b : Fin 2048) :
    (k0_pay3 (accAt m c t.val t.isLt) : S1x2048.Idx → EReal) (ix2 (0 : Fin 1) b)
      = Cert.Spec.denom (inp m c) (row (2048 * (t.val / 8) + b.val)) := by
  rw [Cert.PayIdeal.pay3_apply]
  simp only [accAt_apply, hl]
  rw [Finset.sum_comm]
  rw [Finset.sum_range (fun i => ∑ s : Fin 8, part (inp m c) i (t.val / 8) s b)]
  have hre := Cert.PayIdeal.regroup (fun a => ee (inp m c) a (row (2048 * (t.val / 8) + b.val)))
  unfold Cert.Spec.denom
  refine Eq.trans ?_ hre
  refine Finset.sum_congr rfl fun i _ => Finset.sum_congr rfl fun s _ => ?_
  unfold part
  refine Finset.sum_congr rfl fun g _ => ?_
  rw [row_of_lt (a := 2048 * i.val + 8 * g.val + s.val) (by have := i.isLt; have := g.isLt; have := s.isLt; omega)]

/-- The result array as one function of the input: column b holds the denominator of row b. -/
def Gres (x : Cert.Spec.Mat) : S1x16384.Idx → EReal := fun i => Cert.Spec.denom x (i 1)

set_option maxRecDepth 200000 in
/-- What a writing point writes back is its block of that function. -/
theorem flushed_eq (c : Dev nD) (t : Fin cfg0.N) (hf : (cfg0.win 2).flush t = true) :
    (dats m 0 c).flushed 2 t = ((cfg0.win 2).blk t).view.read (Elt Ideal) (Gres (inp m c)) := by
  have hl : t.val % 8 = 7 := (flush0_2 t).mp hf
  have ht : t.val < 64 := lt_of_lt_of_eq t.isLt (show cfg0.N = 64 from N_0)
  obtain ⟨-, -, -, -, e0, e1⟩ := idx_facts t
  show (cfg0.win 2).cut (grid0.coords t) ((dats m 0 c).after 2 t) = _
  rw [after2]
  funext y
  rw [View.read_apply]
  obtain ⟨y0, b, rfl⟩ : ∃ (y0 : Fin 1) (b : Fin 2048), y = ix2 y0 b := ⟨y 0, y 1, eq_ix2 y⟩
  obtain rfl : y0 = 0 := Subsingleton.elim _ _
  refine Eq.trans (b := (k0_pay3 (accAt m c t.val t.isLt) : S1x2048.Idx → EReal) (ix2 (0 : Fin 1) b)) rfl ?_
  refine (result_block m c t hl b).trans ?_
  have hidx : (((cfg0.win 2).blk t).view.emb (ix2 (0 : Fin 1) b)) 1 = row (2048 * (t.val / 8) + b.val) := by
    apply Fin.ext
    refine Eq.trans (b := win0_2.index t (1 : Fin 2) * 2048 + 1 * b.val) rfl ?_
    show _ = (2048 * (t.val / 8) + b.val) % 16384
    rw [Nat.mod_eq_of_lt (by have := b.isLt; omega)]; omega
  show _ = Cert.Spec.denom (inp m c) ((((cfg0.win 2).blk t).view.emb (ix2 (0 : Fin 1) b)) 1)
  rw [hidx]

/-- An index of the result array is in point t's block iff each coordinate is in the block's range. -/
theorem mem_blk2 (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v1).slice (win0_2.rect t)).set ↔ _
  rw [View.set_slice_whole, Rect.mem_set_unit]
  exact Iff.rfl

/-- Every index of the result array is in the block of the last point of some sweep. -/
theorem cover (i : S1x16384.Idx) : ∃ t : Fin cfg0.N, (cfg0.win 2).flush t = true ∧ i ∈ ((cfg0.win 2).blk t).view.set := by
  have hi0 : (i 0).val < 1 := (i 0).isLt
  have hi1 : (i 1).val < 16384 := (i 1).isLt
  have hN : cfg0.N = 64 := N_0
  have hlt : 8 * ((i 1).val / 2048) + 7 < cfg0.N := by omega
  refine ⟨⟨8 * ((i 1).val / 2048) + 7, hlt⟩, (flush0_2 _).mpr (by show (8 * ((i 1).val / 2048) + 7) % 8 = 7; omega), ?_⟩
  rw [mem_blk2]
  obtain ⟨-, -, -, -, e0, e1⟩ := idx_facts ⟨8 * ((i 1).val / 2048) + 7, hlt⟩
  have e1' : win0_2.index ⟨8 * ((i 1).val / 2048) + 7, hlt⟩ (1 : Fin 2) = (8 * ((i 1).val / 2048) + 7) / 8 := e1
  intro a
  match a with
  | ⟨0, _⟩ =>
    show win0_2.index ⟨8 * ((i 1).val / 2048) + 7, hlt⟩ (0 : Fin 2) * 1 ≤ (i 0).val ∧ (i 0).val < win0_2.index ⟨8 * ((i 1).val / 2048) + 7, hlt⟩ (0 : Fin 2) * 1 + 1
    omega
  | ⟨1, _⟩ =>
    show win0_2.index ⟨8 * ((i 1).val / 2048) + 7, hlt⟩ (1 : Fin 2) * 2048 ≤ (i 1).val ∧ (i 1).val < win0_2.index ⟨8 * ((i 1).val / 2048) + 7, hlt⟩ (1 : Fin 2) * 2048 + 2048
    omega

/-- The result array after the run: every column's denominator. -/
theorem final (c : Dev nD) : (dats m 0 c).arrAt 2 cfg0.N = Gres (inp m c) :=
  (dats m 0 c).arrAt_eq_of_cover 2 (Gres (inp m c)) (fun t hf => flushed_eq m c t hf) cover

/-! ## The host operations after the region -/

/-- The exit contents at the program's argument are the input, -/
theorem Wx_arg0 (c : Dev nD) : Wx m c (Proc.devRef .tc main_arg0) = inp m c :=
  (Wx_of_ne m c main_arg0 (by decide)).trans (V_arg0 m c)
/-- and at the result array the denominators. -/
theorem Wx_res (c : Dev nD) : Wx m c (Proc.devRef .tc main_v1) = Gres (inp m c) := (Wx_v1 m c).trans (final m c)

/-- The result array flattened to a vector, entry i, is the denominator of row i. -/
theorem flat_apply (x : Cert.Spec.Mat) (i : Fin 16384) :
    shapeCast S16384 (Gres x) shapeCasts_S1x16384_S16384 (ix1 i) = Cert.Spec.denom x i := by
  rw [shapeCast_apply (Gres x) shapeCasts_S1x16384_S16384 (ix1 i) (ix2 (0 : Fin 1) i) (by
    rw [Shape.rowMajor_val_two, Shape.rowMajor_val_one]; show (0 : ℕ) * 16384 + i.val = i.val; omega)]
  rfl

/-- The program's result: the later host operations compute the loss from the input and the denominators. -/
theorem result_eq (c : Dev nD) :
    (StableHlo.after hostOps1 (Wx m c) (Proc.devRef .tc main_v11) : S_.Idx → EReal) = fun _ => Cert.Spec.loss (inp m c) := by
  have h : StableHlo.after hostOps1 (Wx m c) (Proc.devRef .tc main_v11)
      = Cert.PayIdeal.tail (Wx m c (Proc.devRef .tc main_arg0)) (shapeCast S16384 (Wx m c (Proc.devRef .tc main_v1)) shapeCasts_S1x16384_S16384) := by
    open StableHlo in after_results
    rfl
  rw [h, Wx_arg0, Wx_res]
  funext j
  rw [eq_ix0 j]
  exact Cert.PayIdeal.tail_apply (inp m c) _ (fun i => flat_apply (inp m c) i)

end Cert.KernelIdeal.Val

end
-- ==== Proof.RefRead.lean ====
/-
  The reference's run, read one operation at a time (the generated modules), gathered for the modules that use them.
-/
import proofs.«134628_j33139967656579_2_alg».proof.Proof.Gen.ReferenceIdeal.Run
import proofs.«134628_j33139967656579_2_alg».proof.Proof.Gen.ReferenceIdeal.Read
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.RefLossAlg.lean ====
/-
  The extended-real algebra that joins the two ways of writing the loss.

  Write c for the reciprocal of the temperature tau.  One side takes, for every row i, the logarithm of the
  quotient  exp(|x_i|^2 / tau) / D_i  and negates the sum before dividing by the number of rows; the other takes
  |x_i|^2 / tau - log D_i  and negates after dividing.  Three laws join them.
  * Dividing by tau is multiplying by c.  The temperature is a nonzero real (the dyadic rational its 32-bit word
    denotes, 9395241 / 2^27), and division by a nonzero real is multiplication by its reciprocal on every
    extended real, the infinities included.
  * (-S) / n = -(S / n) for the real n = 16384: again a product with a real reciprocal, and negation commutes
    with products on the extended reals.
  * log(exp a / d) = a - log d.  This one needs a REAL a and a POSITIVE REAL d: at the infinities the quotient
    and the difference have junk values.  For an input whose entries are real the inner products are real, every
    exponential is a positive real, so each denominator D_i (a sum of 16384 of them) is a positive real and each
    |x_i|^2 / tau is real.
-/
import proofs.«134628_j33139967656579_2_alg».proof.Proof.Spec
import proofs.«134628_j33139967656579_2_alg».proof.Proof.LibRealSum

noncomputable section

namespace Cert.RefLoss

open Idealize.ShloMosaic Idealize.ShloMosaic.ValueIdx Cert.Spec Cert.LibRealSum
open scoped BigOperators

/-! ## The two literal words -/

/-- The temperature's word denotes (2^23 + 1006633) * 2^(123 - 127 - 23) = 9395241 / 2^27. -/
theorem tau_word : Ideal.ofBits .f32 0x3D8F5C29#32 = ((9395241 / 134217728 : ℝ) : EReal) := by
  simp [Ideal.ofBits, Ideal.ieee, -EReal.coe_mul]; norm_num

/-- The row count's word denotes 2^23 * 2^(141 - 127 - 23) = 2^14. -/
theorem rows_word : Ideal.ofBits .f32 0x46800000#32 = ((16384 : ℝ) : EReal) := by
  simp [Ideal.ofBits, Ideal.ieee, -EReal.coe_mul]; norm_num

/-! ## Division by the two constants, on every extended real -/

/-- Dividing by the temperature is multiplying by its reciprocal. -/
theorem div_tau (y : EReal) : Ideal.div y (Ideal.ofBits .f32 0x3D8F5C29#32) = y * invTau := by
  have h : (1 / (9395241 / 134217728) : ℝ) = 134217728 / 9395241 := by norm_num
  rw [tau_word, Ideal.div_coe (by norm_num), h, invTau]

/-- Negation passes through the division by the number of rows. -/
theorem neg_div_rows (S : EReal) :
    Ideal.div (-S) (Ideal.ofBits .f32 0x46800000#32) = -Ideal.div S (Ideal.ofBits .f32 0x46800000#32) := by
  rw [rows_word, Ideal.div_coe (by norm_num), Ideal.div_coe (by norm_num), neg_mul]

/-! ## The logarithm of a quotient, on the reals -/

/-- For a real a and a positive real d:  log(exp a / d) = a - log d. -/
theorem log_div_exp (a d : ℝ) (hd : 0 < d) :
    Ideal.log (Ideal.div (Ideal.exp (a : EReal)) (d : EReal)) = (a : EReal) - Ideal.log (d : EReal) := by
  have hq : 0 < Real.exp a * (1 / d) := by positivity
  rw [Ideal.exp_coe, Ideal.div_coe hd.ne', ← EReal.coe_mul, Ideal.log_coe, Ideal.log_coe,
    if_neg (not_le.mpr hd), if_neg (not_le.mpr hq), ← EReal.coe_sub]
  congr 1
  rw [mul_one_div, Real.log_div (Real.exp_pos a).ne' hd.ne', Real.log_exp]

/-! ## Real entries make every intermediate real -/

section
variable (x : Mat) (r : (⟨2, ![16384, 128]⟩ : Shape).Idx → ℝ) (hr : ∀ i, x i = (r i : EReal))
include hr

/-- The inner product of two rows of real entries is the real inner product. -/
theorem gram_real (a b : Fin 16384) :
    gram x a b = ((∑ k : Fin 128, r (ix2 a k) * r (ix2 b k) : ℝ) : EReal) := by
  unfold gram
  rw [coe_sum]
  exact Finset.sum_congr rfl fun k _ => by rw [hr, hr, EReal.coe_mul]

/-- Row i's squared norm over the temperature is real. -/
theorem logNum_real (i : Fin 16384) :
    logNum x i = (((∑ k : Fin 128, r (ix2 i k) * r (ix2 i k)) * (134217728 / 9395241) : ℝ) : EReal) := by
  show Ideal.div (gram x i i) (Ideal.ofBits .f32 0x3D8F5C29#32) = _
  rw [div_tau, gram_real x r hr, invTau, ← EReal.coe_mul]

/-- Column b's denominator is a positive real: a sum of 16384 exponentials of reals. -/
theorem denom_real (b : Fin 16384) : ∃ d : ℝ, 0 < d ∧ denom x b = (d : EReal) := by
  refine ⟨∑ a : Fin 16384, Real.exp ((∑ k : Fin 128, r (ix2 a k) * r (ix2 b k)) * (134217728 / 9395241)), ?_, ?_⟩
  · exact Finset.sum_pos (fun a _ => Real.exp_pos _) ⟨⟨0, by norm_num⟩, Finset.mem_univ _⟩
  · unfold denom
    rw [coe_sum]
    exact Finset.sum_congr rfl fun a _ => by rw [gram_real x r hr, invTau, ← EReal.coe_mul, Ideal.exp_coe]

end

/-- For an input of real entries, the logarithm of row i's quotient is the difference of the logarithms. -/
theorem log_ratio (x : Mat) (hx : ∀ i, ∃ r : ℝ, x i = (r : EReal)) (i : Fin 16384) :
    Ideal.log (Ideal.div (Ideal.exp (logNum x i)) (denom x i)) = logNum x i - Ideal.log (denom x i) := by
  choose r hr using hx
  obtain ⟨d, hd, hD⟩ := denom_real x r hr i
  rw [logNum_real x r hr i, hD]
  exact log_div_exp _ d hd

end Cert.RefLoss

end
-- ==== Proof.RefLoss.lean ====
/-
  The reference computes the loss.

  The reference program is read one operation at a time, outermost last.  For rows a, b and a column k:
  * the row sums of the entrywise square are the diagonal inner products <x_a, x_a> (the sum starts from the zero
    word, which denotes 0);
  * dividing them by the temperature gives the logarithm of the numerator, and its exponential the numerator;
  * the product of the input with its transpose, contracted over the column, is the matrix of inner products
    <x_a, x_b>; divided entrywise by the temperature (the same as multiplied by its reciprocal) and exponentiated,
    its column sums are the denominators D_b;
  * the logarithm of numerator over denominator is, for real entries, log(numerator) - log D_i;
  * the sum over all rows, negated and divided by the number of rows, is the loss, because negation passes
    through the division by a nonzero real.
  Only the logarithm of the quotient uses that the entries are real.
-/
import proofs.«134628_j33139967656579_2_alg».proof.Proof.RefRead
import proofs.«134628_j33139967656579_2_alg».proof.Proof.Spec
import proofs.«134628_j33139967656579_2_alg».proof.Proof.RefLossAlg

noncomputable section

namespace Cert.RefLoss

open Cert.ReferenceIdeal Cert.ReferenceIdeal.Gen Cert.ReferenceIdeal.Read
open Idealize.ShloMosaic Idealize.ShloMosaic.ValueIdx Cert.Spec
open scoped BigOperators

/-! ## A sum over a rank-1 index set is the sum over its coordinate -/

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-! ## The stages, read at coordinates -/

variable (x : FVec Ideal S16384x128 .f32)

/-- Row a's sum of squares is the inner product of row a with itself. -/
theorem v1_at (a : Fin 16384) : val_main_v1 (F := Ideal) x (ix1 a) = gram x a a := by
  rw [val_main_v1_apply, val_main_cst_apply, Ideal.ofBits_def, Ideal.ofBits_zero_f32, zero_add]
  unfold gram
  refine Finset.sum_congr rfl fun k _ => ?_
  have e : idx_main_v1 (ix1 a) k = ix2 a k := funext fun d => Fin.ext (by match d with | ⟨0, _⟩ => rfl | ⟨1, _⟩ => rfl)
  rw [val_main_v0_apply, e, Ideal.mulf_def]

/-- Divided by the temperature: the logarithm of row a's numerator. -/
theorem v3_at (a : Fin 16384) : val_main_v3 (F := Ideal) x (ix1 a) = logNum x a := by
  rw [val_main_v3_apply, v1_at, val_main_v2_apply, val_main_cst_0_apply, Ideal.ofBits_def, Ideal.hostDivf_def]
  rfl

/-- Row a's numerator. -/
theorem v4_at (a : Fin 16384) : val_main_v4 (F := Ideal) x (ix1 a) = Ideal.exp (logNum x a) := by
  rw [val_main_v4_apply, v3_at, Ideal.hostUnary_exp_def]

/-- The product with the transpose, at (a, b), is the inner product of rows a and b. -/
theorem v6_at (a b : Fin 16384) : val_main_v6 (F := Ideal) x (ix2 a b) = gram x a b := by
  rw [val_main_v6_apply]
  unfold gram
  refine Finset.sum_congr rfl fun k _ => ?_
  have el : lidx_main_v6 (ix2 a b) k = ix2 a k := funext fun d => Fin.ext (by match d with | ⟨0, _⟩ => rfl | ⟨1, _⟩ => rfl)
  have er : idx_main_v5 (ridx_main_v6 (ix2 a b) k) = ix2 b k :=
    funext fun d => Fin.ext (by match d with | ⟨0, _⟩ => rfl | ⟨1, _⟩ => rfl)
  rw [val_main_v5_apply, el, er]

/-- Divided by the temperature and exponentiated: the term of column b's denominator that row a gives. -/
theorem v9_at (a b : Fin 16384) : val_main_v9 (F := Ideal) x (ix2 a b) = Ideal.exp (gram x a b * invTau) := by
  rw [val_main_v9_apply, val_main_v8_apply, v6_at, val_main_v7_apply, val_main_cst_1_apply, Ideal.ofBits_def,
    Ideal.hostDivf_def, Ideal.hostUnary_exp_def, div_tau]

/-- The column sums are the denominators. -/
theorem v10_at (b : Fin 16384) : val_main_v10 (F := Ideal) x (ix1 b) = denom x b := by
  rw [val_main_v10_apply, val_main_cst_2_apply, Ideal.ofBits_def, Ideal.ofBits_zero_f32, zero_add]
  unfold denom
  refine Finset.sum_congr rfl fun a _ => ?_
  have e : idx_main_v10 (ix1 b) a = ix2 a b := funext fun d => Fin.ext (by match d with | ⟨0, _⟩ => rfl | ⟨1, _⟩ => rfl)
  rw [e, v9_at]

/-- The logarithm of numerator over denominator; for real entries, the difference of the logarithms. -/
theorem v12_at (hx : ∀ i, ∃ r : ℝ, x i = (r : EReal)) (i : Fin 16384) :
    val_main_v12 (F := Ideal) x (ix1 i) = logNum x i - Ideal.log (denom x i) := by
  rw [val_main_v12_apply, val_main_v11_apply, v4_at, v10_at, Ideal.hostDivf_def, Ideal.hostUnary_log_def]
  exact log_ratio x hx i

/-! ## The result -/

/-- For an input of real entries the reference's last stage is the loss. -/
theorem reference_loss_stage (hx : ∀ i, ∃ r : ℝ, x i = (r : EReal)) :
    val_main_v15 (F := Ideal) x = fun _ => Cert.Spec.loss x := by
  funext j
  rw [val_main_v15_apply, val_main_v14_apply, val_main_v13_apply, val_main_cst_3_apply, val_main_cst_4_apply,
    Ideal.ofBits_def, Ideal.ofBits_def, Ideal.ofBits_zero_f32, zero_add, sum_idx1, Ideal.hostDivf_def,
    Ideal.hostNegf_def, Ideal.negf_def, neg_div_rows]
  have hs : (∑ a : Fin 16384, val_main_v12 (F := Ideal) x (ix1 a))
      = ∑ i : Fin 16384, (logNum x i - Ideal.log (denom x i)) :=
    Finset.sum_congr rfl fun i _ => v12_at x hx i
  rw [hs]
  rfl

/-- The same, with the left side spelt as the term the reference's run gives its result buffer. -/
theorem reference_loss (hx : ∀ i, ∃ r : ℝ, x i = (r : EReal)) :
    Host.divf (Host.negf (Host.reduceAdd (Host.log (Host.divf (Host.exp (Host.divf (Host.reduceAdd (mulf (x) (x)) (constant S_ .f32 0x00000000#32) reducesTo_S16384x128_S16384_d1 h_S_) (broadcastInDim S16384 ![] bcast_S_S16384 (constant S_ .f32 0x3D8F5C29#32)))) (Host.reduceAdd (Host.exp (Host.divf (Host.dotGeneral dot_S16384x128_S128x16384_S16384x16384_1_0_0_1_n_n none (x) (transpose S128x16384 [1, 0] (x) transposes_S16384x128_S128x16384_1_0)) (broadcastInDim S16384x16384 ![] bcast_S_S16384x16384 (constant S_ .f32 0x3D8F5C29#32)))) (constant S_ .f32 0x00000000#32) reducesTo_S16384x16384_S16384_d0 h_S_))) (constant S_ .f32 0x00000000#32) reducesTo_S16384_S_d0 h_S_)) (constant S_ .f32 0x46800000#32)
      = fun _ => Cert.Spec.loss x :=
  (val_main_v15_eq (F := Ideal) x).trans (reference_loss_stage x hx)

end Cert.RefLoss

end
-- ==== Proof.LibFiniteInput.lean ====
/-
  From "all entries have absolute value below +∞" to "every entry is a real number", at ANY shape.

  A finiteness precondition on a float array x is the array-language expression  all (|x| < +∞) : a reduction by
  "and", from the constant 1, of the entrywise comparison of |x| with the +∞ pattern broadcast from a scalar, over
  all axes into a single result.  If that result is 1 then the comparison is 1 at every entry (`all_real`); and on the
  extended reals  max x (−x) < +∞  fails at both infinities, so the entry is the coercion of a real number
  (`real_of_abs_lt_top`).  The +∞ pattern of f32 is `0x7F800000` (`inf_eq`).  Stated for any shape `s`, any list of
  reduced axes, and the shape and reduction facts as variables, so that it applies to a printed predicate's terms as
  they stand.  Imports only the library.
-/
import Idealize.ShloMosaic.Lib.ReduceAll
import Idealize.ShloMosaic.Lib.ValueIdx
import Idealize.ShloMosaic.PureOps.Ideal

noncomputable section

namespace Cert.LibFiniteInput

open Idealize.ShloMosaic Idealize.ShloMosaic.ValueIdx

/-- The scalar shape has one index. -/
instance : Subsingleton (⟨0, ![]⟩ : Shape).Idx := ⟨fun a b => funext fun d => d.elim0⟩

/-- The f32 pattern `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if `all (|x| < +∞)` is 1, every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have h2 : BitVec.ofBool (decide (max (x i) (-(x i)) < Ideal.ofBits .f32 0x7F800000#32)) = 1#1 := h1
  rw [inf_eq] at h2
  refine real_of_abs_lt_top (x i) ?_
  by_contra hn
  rw [decide_eq_false hn] at h2
  exact absurd h2 (by decide)

end Cert.LibFiniteInput

end
-- ==== Proof.RefLossInput.lean ====
/-
  From the finiteness precondition to real entries.

  The precondition on the 16384 x 128 input says that the conjunction, over all entries, of |x| < +∞ is true.
  On the extended reals max x (−x) < +∞ fails exactly at the two infinities, so under the precondition every
  entry of the input is the coercion of a real number.  This is the only place the precondition is opened; the
  laws that need it (the logarithm of a quotient) are then used on real numbers.
-/
import proofs.«134628_j33139967656579_2_alg».proof.Pre_finite_inputs
import proofs.«134628_j33139967656579_2_alg».proof.Proof.LibFiniteInput

noncomputable section

namespace Cert.RefLoss

open Idealize.ShloMosaic Idealize.ShloMosaic.ValueIdx

/-- If the finiteness test of the input evaluates to true, every entry of the input is a real number. -/
theorem input_real [Cert.Pre_finite_inputs.Facts] (x : FVec Ideal (⟨2, ![16384, 128]⟩ : Shape) .f32)
    (h : Cert.Pre_finite_inputs.fn (F := Ideal) x = (fun _ => 1#1)) : ∀ i, ∃ r : ℝ, x i = (r : EReal) := by
  intro i
  have e := congrFun h ix0
  dsimp only [Cert.Pre_finite_inputs.fn] at e
  exact Cert.LibFiniteInput.all_real x _ _ _ e i

end Cert.RefLoss

end
-- ==== Proof.lean ====
/-
  An instance-discrimination loss over 16384 unit rows x_a of dimension 128 at temperature tau: with
  D_b = sum_a exp(<x_a, x_b> / tau) the loss is minus the mean over i of |x_i|^2 / tau - log D_i.

  The kernel computes the denominators D_b on an 8 x 8 grid of 2048 x 2048 tiles of the Gram matrix: at point
  (j, i) it multiplies row block i by row block j, scales by the reciprocal temperature, exponentiates, folds the
  tile's 2048 rows into an 8-row accumulator by whole-row-group sums, adds that to the running accumulator of
  column block j, and at i = 7 sums the accumulator's 8 rows into the 2048 denominators of column block j; the
  host then forms |x_i|^2 / tau - log D_i, its mean, and negates.  The reference computes
  (-(sum_i log(exp(|x_i|^2 / tau) / D_i))) / 16384 with the whole Gram matrix at once.

  At the extended reals the two agree when every input entry is a real number: the tiles, row groups and
  accumulator rows run through every row exactly once (a sum reordered); multiplying by the reciprocal of tau is
  dividing by tau, the kernel's scale being NAMED the exact reciprocal 134217728/9395241 of the rational
  9395241/134217728 the reference's divisor denotes; log(exp r / d) = r - log d for a real r and a positive real d;
  and (-S)/n = -(S/n).  The last two laws fail at infinities, which is where the precondition is used.

  The kernel reads its converted input through two windows (row block i and row block j of ONE array), carries
  its accumulator from point to point, and writes its result block only at i = 7: the program's run is proved by
  cases on the point's position in its sweep, the input array's ownership cut in two halves for the two windows
  on entering the region and joined again on leaving it.
-/
import proofs.«134628_j33139967656579_2_alg».proof.Defs
import proofs.«134628_j33139967656579_2_alg».proof.Proof.Gen.Kernel
import proofs.«134628_j33139967656579_2_alg».proof.Proof.Gen.KernelIdeal
import proofs.«134628_j33139967656579_2_alg».proof.Proof.Gen.ReferenceIdeal
import proofs.«134628_j33139967656579_2_alg».proof.Proof.Gen.Pre_finite_inputs
import proofs.«134628_j33139967656579_2_alg».proof.Proof.KbRun
import proofs.«134628_j33139967656579_2_alg».proof.Proof.KiValue
import proofs.«134628_j33139967656579_2_alg».proof.Proof.RefLoss
import proofs.«134628_j33139967656579_2_alg».proof.Proof.RefLossInput
import Idealize.ShloMosaic.Adequacy
import Idealize.ShloMosaic.Init

noncomputable section

namespace Cert.Proof

open Idealize.ShloMosaic Idealize.SL.Sem

/-- The kernel as printed runs to the end and leaves its argument unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale, named, denotes the exact reciprocal of the temperature. -/
theorem preserves : Cert.preserves_Kernel_KernelIdeal :=
  IdealRules.named_const.statement Cert.KernelIdeal.κ "inv_tau" .f32 0x41649249#32 ((134217728 / 9395241 : ℝ) : EReal) rfl

/-- Both programs end with the loss of the input: the kernel by its run read at the result buffer, the reference by
    its run and the algebra above, the input's entries being real by the precondition. -/
theorem algebraic : Cert.algebraic_KernelIdeal_ReferenceIdeal := by
  intro m ρ m' ρ' hpre hagree
  have hx : ∀ c : Dev Cert.KernelIdeal.nD, ∀ i, ∃ r : ℝ,
      m ((c.tc : Thread Cert.KernelIdeal.nD Cert.KernelIdeal.τ).loc Cert.KernelIdeal.main_arg0) i = (r : EReal) :=
    fun c => Cert.RefLoss.input_real _ (hpre c)
  refine ⟨fun c => fun _ => Cert.Spec.loss (m ((c.tc : Thread Cert.KernelIdeal.nD Cert.KernelIdeal.τ).loc Cert.KernelIdeal.main_arg0)), ?_, ?_⟩
  · refine (θ_run Cert.KernelIdeal.defs _ _).mono (fun _ h c => ⟨?_, ?_⟩) (Cert.KernelIdeal.Fr.run_main (F := Ideal) m ρ)
    · exact ((h c).2 Cert.KernelIdeal.main_v11 Cert.KernelIdeal.Fr.v11_rest).trans (Cert.KernelIdeal.Val.result_eq m c)
    · exact ((h c).2 Cert.KernelIdeal.main_arg0 Cert.KernelIdeal.Fr.arg0_rest).trans (Cert.KernelIdeal.Fr.arg0_kept m c)
  · refine (θ_run Cert.ReferenceIdeal.defs _ _).mono (fun _ h c => ⟨(h c).1.trans ?_, (h c).2⟩)
      (Cert.ReferenceIdeal.Value.run (F := Ideal) m' ρ')
    rw [Cert.RefLoss.reference_loss _ (by rw [hagree c]; exact hx c), hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
